-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x65536 : Shape := ⟨3, ![16, 64, 65536]⟩
abbrev S16x3x65536 : Shape := ⟨3, ![16, 3, 65536]⟩
abbrev S_ : Shape := ⟨0, ![]⟩

class Facts : Prop where
  bcast_S_S16x64x65536 : S_.BroadcastsInDim S16x64x65536 (![] : Fin 0 → Fin S16x64x65536.rank)
  reducesTo_S16x64x65536_S_d0_1_2 : S16x64x65536.ReducesTo [0, 1, 2] S_
  h_S_ : 0 < S_.numel
  bcast_S_S16x3x65536 : S_.BroadcastsInDim S16x3x65536 (![] : Fin 0 → Fin S16x3x65536.rank)
  reducesTo_S16x3x65536_S_d0_1_2 : S16x3x65536.ReducesTo [0, 1, 2] S_

variable [Facts]

def fn {F : FTy → Type} [FloatOps F] (main_arg0 : FVec F S16x64x65536 .f32) (main_arg1 : FVec F S16x3x65536 .f32) : IVec S_ 1 :=
  let main_v0 : FVec F S16x64x65536 .f32 := Host.absf main_arg0
  let main_cst : FVec F S_ .f32 := constant S_ .f32 0x7F800000#32
  let main_v1 : FVec F S16x64x65536 .f32 := broadcastInDim S16x64x65536 ![] bcast_S_S16x64x65536 main_cst
  let main_v2 : IVec S16x64x65536 1 := cmpf .olt main_v0 main_v1
  let main_c : IVec S_ 1 := constantI S_ 1 1#1
  let main_v3 : IVec S_ 1 := (fun x v => Host.reduce IntOp.andi x v reducesTo_S16x64x65536_S_d0_1_2 h_S_) main_v2 main_c
  let main_v4 : FVec F S16x3x65536 .f32 := Host.absf main_arg1
  let main_cst_0 : FVec F S_ .f32 := constant S_ .f32 0x7F800000#32
  let main_v5 : FVec F S16x3x65536 .f32 := broadcastInDim S16x3x65536 ![] bcast_S_S16x3x65536 main_cst_0
  let main_v6 : IVec S16x3x65536 1 := cmpf .olt main_v4 main_v5
  let main_c_1 : IVec S_ 1 := constantI S_ 1 1#1
  let main_v7 : IVec S_ 1 := (fun x v => Host.reduce IntOp.andi x v reducesTo_S16x3x65536_S_d0_1_2 h_S_) main_v6 main_c_1
  let main_v8 : IVec S_ 1 := andi main_v3 main_v7
  main_v8
-- ==== Kernel.lean ====
abbrev S16x64x65536 : Shape := ⟨3, ![16, 64, 65536]⟩
abbrev S16x3x65536 : Shape := ⟨3, ![16, 3, 65536]⟩
abbrev S16x1x65536 : Shape := ⟨3, ![16, 1, 65536]⟩
abbrev S1x3x65536 : Shape := ⟨3, ![1, 3, 65536]⟩
abbrev S1x1x65536 : Shape := ⟨3, ![1, 1, 65536]⟩
abbrev S3x65536 : Shape := ⟨2, ![3, 65536]⟩
abbrev S3 : Shape := ⟨1, ![3]⟩
abbrev S3x1 : Shape := ⟨2, ![3, 1]⟩
abbrev S65536 : Shape := ⟨1, ![65536]⟩
abbrev S1x65536 : Shape := ⟨2, ![1, 65536]⟩
abbrev S1 : Shape := ⟨1, ![1]⟩
abbrev S1x1 : Shape := ⟨2, ![1, 1]⟩
abbrev S1048576 : Shape := ⟨1, ![1048576]⟩
abbrev S_ : Shape := ⟨0, ![]⟩
abbrev S16x65x65536 : Shape := ⟨3, ![16, 65, 65536]⟩
abbrev S16x65536x65 : Shape := ⟨3, ![16, 65536, 65]⟩
abbrev S1048576x65 : Shape := ⟨2, ![1048576, 65]⟩
abbrev S524288x65 : Shape := ⟨2, ![524288, 65]⟩
abbrev S1048576x1 : Shape := ⟨2, ![1048576, 1]⟩
abbrev S16x64x32768 : Shape := ⟨3, ![16, 64, 32768]⟩
abbrev S8192x65 : Shape := ⟨2, ![8192, 65]⟩
abbrev S1x64x8192 : Shape := ⟨3, ![1, 64, 8192]⟩
abbrev S8192x64 : Shape := ⟨2, ![8192, 64]⟩
abbrev S8192x1 : Shape := ⟨2, ![8192, 1]⟩
abbrev S64x8192 : Shape := ⟨2, ![64, 8192]⟩
abbrev S16x64x32x32x32 : Shape := ⟨5, ![16, 64, 32, 32, 32]⟩

abbrev nBuf : Space → Nat
  | .hbm => 16
  | .vmem => 10
  | .smem => 0
  | _ => 0

abbrev bufTy : (tb : Table) → Fin (tcTables nBuf tb) → BufTy
  | .hbm, ⟨0, _⟩ => ⟨S16x64x65536, .f32⟩
  | .hbm, ⟨1, _⟩ => ⟨S16x3x65536, .f32⟩
  | .hbm, ⟨2, _⟩ => ⟨S16x3x65536, .f32⟩
  | .hbm, ⟨3, _⟩ => ⟨S16x1x65536, .i32⟩
  | .hbm, ⟨4, _⟩ => ⟨S1048576, .i32⟩
  | .hbm, ⟨5, _⟩ => ⟨S_, .f32⟩
  | .hbm, ⟨6, _⟩ => ⟨S16x1x65536, .f32⟩
  | .hbm, ⟨7, _⟩ => ⟨S16x65x65536, .f32⟩
  | .hbm, ⟨8, _⟩ => ⟨S16x65536x65, .f32⟩
  | .hbm, ⟨9, _⟩ => ⟨S1048576x65, .f32⟩
  | .hbm, ⟨10, _⟩ => ⟨S_, .f32⟩
  | .hbm, ⟨11, _⟩ => ⟨S524288x65, .f32⟩
  | .hbm, ⟨12, _⟩ => ⟨S1048576x1, .i32⟩
  | .hbm, ⟨13, _⟩ => ⟨S524288x65, .f32⟩
  | .hbm, ⟨14, _⟩ => ⟨S16x64x32768, .f32⟩
  | .hbm, ⟨15, _⟩ => ⟨S16x64x32x32x32, .f32⟩
  | .local _ .vmem, ⟨0, _⟩ => ⟨S1x3x65536, .f32⟩
  | .local _ .vmem, ⟨1, _⟩ => ⟨S1x3x65536, .f32⟩
  | .local _ .vmem, ⟨2, _⟩ => ⟨S1x3x65536, .f32⟩
  | .local _ .vmem, ⟨3, _⟩ => ⟨S1x3x65536, .f32⟩
  | .local _ .vmem, ⟨4, _⟩ => ⟨S1x1x65536, .i32⟩
  | .local _ .vmem, ⟨5, _⟩ => ⟨S1x1x65536, .i32⟩
  | .local _ .vmem, ⟨6, _⟩ => ⟨S8192x65, .f32⟩
  | .local _ .vmem, ⟨7, _⟩ => ⟨S8192x65, .f32⟩
  | .local _ .vmem, ⟨8, _⟩ => ⟨S1x64x8192, .f32⟩
  | .local _ .vmem, ⟨9, _⟩ => ⟨S1x64x8192, .f32⟩
  | _, _ => ⟨S16x64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x65536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8192x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  inb_S1x3x65536_S1x3x65536_0_0_0 : ∀ a, (![0, 0, 0] : Fin 3 → Nat) a + S1x3x65536.size a ≤ S1x3x65536.size a
  h_S1x3x65536 : 0 < S1x3x65536.numel
  shapeCasts_S1x3x65536_S3x65536 : S1x3x65536.ShapeCasts S3x65536
  reduces_S3x65536_S3 : S3x65536.Reduces [1] S3
  shapeCasts_S3_S3x1 : S3.ShapeCasts S3x1
  broadcasts_S3x1_S3x65536 : S3x1.Broadcasts S3x65536
  reduces_S3x65536_S65536 : S3x65536.Reduces [0] S65536
  shapeCasts_S65536_S1x65536 : S65536.ShapeCasts S1x65536
  reduces_S1x65536_S1 : S1x65536.Reduces [1] S1
  shapeCasts_S1_S1x1 : S1.ShapeCasts S1x1
  broadcasts_S1x1_S3x65536 : S1x1.Broadcasts S3x65536
  shapeCasts_S3x65536_S1x3x65536 : S3x65536.ShapeCasts S1x3x65536
  slices_S3x65536_o0_0_S1x65536 : S3x65536.Slices ![0, 0] S1x65536
  slices_S3x65536_o1_0_S1x65536 : S3x65536.Slices ![1, 0] S1x65536
  slices_S3x65536_o2_0_S1x65536 : S3x65536.Slices ![2, 0] S1x65536
  inb_S1x1x65536_S1x1x65536_0_0_0 : ∀ a, (![0, 0, 0] : Fin 3 → Nat) a + S1x1x65536.size a ≤ S1x1x65536.size a
  h_S1x1x65536 : 0 < S1x1x65536.numel
  shapeCasts_S1x1x65536_S1x65536 : S1x1x65536.ShapeCasts S1x65536
  shapeCasts_S1x65536_S1x1x65536 : S1x65536.ShapeCasts S1x1x65536
  shapeCasts_S16x1x65536_S1048576 : S16x1x65536.ShapeCasts S1048576
  bcast_S_S16x1x65536 : S_.BroadcastsInDim S16x1x65536 (![] : Fin 0 → Fin S16x1x65536.rank)
  concatenates_S16x64x65536_S16x1x65536_S16x65x65536_d1 : Shape.Concatenates [S16x64x65536, S16x1x65536] S16x65x65536 1
  transposes_S16x65x65536_S16x65536x65_0_2_1 : S16x65x65536.Transposes [0, 2, 1] S16x65536x65
  shapeCasts_S16x65536x65_S1048576x65 : S16x65536x65.ShapeCasts S1048576x65
  bcast_S_S524288x65 : S_.BroadcastsInDim S524288x65 (![] : Fin 0 → Fin S524288x65.rank)
  bcast_S1048576_S1048576x1_0 : S1048576.BroadcastsInDim S1048576x1 (![0] : Fin 1 → Fin S1048576x1.rank)
  inb_S8192x65_S8192x65_0_0 : ∀ a, (![0, 0] : Fin 2 → Nat) a + S8192x65.size a ≤ S8192x65.size a
  h_S8192x65 : 0 < S8192x65.numel
  shapeCasts_S8192x65_S8192x65 : S8192x65.ShapeCasts S8192x65
  slices_S8192x65_o0_0_S8192x64 : S8192x65.Slices ![0, 0] S8192x64
  slices_S8192x65_o0_64_S8192x1 : S8192x65.Slices ![0, 64] S8192x1
  broadcasts_S8192x1_S8192x64 : S8192x1.Broadcasts S8192x64
  transposes_S8192x64_p1_0_S64x8192 : S8192x64.Transposes [1, 0] S64x8192
  shapeCasts_S64x8192_S1x64x8192 : S64x8192.ShapeCasts S1x64x8192
  inb_S1x64x8192_S1x64x8192_0_0_0 : ∀ a, (![0, 0, 0] : Fin 3 → Nat) a + S1x64x8192.size a ≤ S1x64x8192.size a
  h_S1x64x8192 : 0 < S1x64x8192.numel
  shapeCasts_S16x64x32768_S16x64x32x32x32 : S16x64x32768.ShapeCasts S16x64x32x32x32
  scatter_S524288x65_S1048576x1_S1048576x65_1_0_0_1_wf : ScatterDims.WF S524288x65 S1048576x1 S1048576x65 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x65536.size a ≤ S16x3x65536.size a
  hwx0_0 : ∀ i : grid0.Coords, EltTy.bits .f32 = 32 ∨ (Rect.block (s := S16x3x65536) S1x3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x65536.size a ≤ S16x3x65536.size a
  hwx0_1 : ∀ i : grid0.Coords, EltTy.bits .f32 = 32 ∨ (Rect.block (s := S16x3x65536) S1x3x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x65536.size a ≤ S16x1x65536.size a
  hwx0_2 : ∀ i : grid0.Coords, EltTy.bits .i32 = 32 ∨ (Rect.block (s := S16x1x65536) S1x1x65536.size (cc0_transform_2 i) (hinb0_2 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x65.size a ≤ S524288x65.size a
  hwx1_0 : ∀ i : grid1.Coords, EltTy.bits .f32 = 32 ∨ (Rect.block (s := S524288x65) S8192x65.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x8192.size a ≤ S16x64x32768.size a
  hwx1_1 : ∀ i : grid1.Coords, EltTy.bits .f32 = 32 ∨ (Rect.block (s := S16x64x32768) S1x64x8192.size (cc1_transform_1 i) (hinb1_1 i)).WholeWords (EltTy.packing .f32)

variable [Facts₀]

def scatter_S524288x65_S1048576x1_S1048576x65_1_0_0_1 : ScatterDims S524288x65 S1048576x1 S1048576x65 where
  updateWindowDims := [1]
  insertedWindowDims := [0]
  scatterDimsToOperandDims := [0]
  indexVectorDim := 1
  wf := scatter_S524288x65_S1048576x1_S1048576x65_1_0_0_1_wf

abbrev win0_0 : Pipeline.Window sig grid0 :=
  Pipeline.Window.ofSpec (Memref.whole main_arg1) S1x3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x3x65536.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S8192x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x64x8192.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x64x65536 : Shape := ⟨3, ![16, 64, 65536]⟩
abbrev S16x3x65536 : Shape := ⟨3, ![16, 3, 65536]⟩
abbrev S_ : Shape := ⟨0, ![]⟩
abbrev S16x3 : Shape := ⟨2, ![16, 3]⟩
abbrev S16x3x1 : Shape := ⟨3, ![16, 3, 1]⟩
abbrev S16x65536 : Shape := ⟨2, ![16, 65536]⟩
abbrev S16x1x65536 : Shape := ⟨3, ![16, 1, 65536]⟩
abbrev S16x1 : Shape := ⟨2, ![16, 1]⟩
abbrev S16x1x1 : Shape := ⟨3, ![16, 1, 1]⟩
abbrev S16 : Shape := ⟨1, ![16]⟩
abbrev S1048576 : Shape := ⟨1, ![1048576]⟩
abbrev S16x65536x64 : Shape := ⟨3, ![16, 65536, 64]⟩
abbrev S1048576x64 : Shape := ⟨2, ![1048576, 64]⟩
abbrev S524288x64 : Shape := ⟨2, ![524288, 64]⟩
abbrev S1048576x1 : Shape := ⟨2, ![1048576, 1]⟩
abbrev S524288 : Shape := ⟨1, ![524288]⟩
abbrev S524288x1 : Shape := ⟨2, ![524288, 1]⟩
abbrev S16x32x32x32x64 : Shape := ⟨5, ![16, 32, 32, 32, 64]⟩
abbrev S16x64x32x32x32 : Shape := ⟨5, ![16, 64, 32, 32, 32]⟩

abbrev nBuf : Space → Nat
  | .hbm => 84
  | .vmem => 0
  | .smem => 0
  | _ => 0

abbrev bufTy : (tb : Table) → Fin (tcTables nBuf tb) → BufTy
  | .hbm, ⟨0, _⟩ => ⟨S16x64x65536, .f32⟩
  | .hbm, ⟨1, _⟩ => ⟨S16x3x65536, .f32⟩
  | .hbm, ⟨2, _⟩ => ⟨S_, .f32⟩
  | .hbm, ⟨3, _⟩ => ⟨S16x3, .f32⟩
  | .hbm, ⟨4, _⟩ => ⟨S16x3x1, .f32⟩
  | .hbm, ⟨5, _⟩ => ⟨S_, .f32⟩
  | .hbm, ⟨6, _⟩ => ⟨S16x3x1, .f32⟩
  | .hbm, ⟨7, _⟩ => ⟨S16x3x1, .f32⟩
  | .hbm, ⟨8, _⟩ => ⟨S16x3x65536, .f32⟩
  | .hbm, ⟨9, _⟩ => ⟨S16x3x65536, .f32⟩
  | .hbm, ⟨10, _⟩ => ⟨S16x3x65536, .f32⟩
  | .hbm, ⟨11, _⟩ => ⟨S_, .f32⟩
  | .hbm, ⟨12, _⟩ => ⟨S16x65536, .f32⟩
  | .hbm, ⟨13, _⟩ => ⟨S16x1x65536, .f32⟩
  | .hbm, ⟨14, _⟩ => ⟨S16x1x65536, .f32⟩
  | .hbm, ⟨15, _⟩ => ⟨S_, .f32⟩
  | .hbm, ⟨16, _⟩ => ⟨S16x1, .f32⟩
  | .hbm, ⟨17, _⟩ => ⟨S16x1x1, .f32⟩
  | .hbm, ⟨18, _⟩ => ⟨S_, .f32⟩
  | .hbm, ⟨19, _⟩ => ⟨S16x1x1, .f32⟩
  | .hbm, ⟨20, _⟩ => ⟨S16x1x1, .f32⟩
  | .hbm, ⟨21, _⟩ => ⟨S_, .f32⟩
  | .hbm, ⟨22, _⟩ => ⟨S16x1x1, .f32⟩
  | .hbm, ⟨23, _⟩ => ⟨S16x1x1, .f32⟩
  | .hbm, ⟨24, _⟩ => ⟨S16x3x65536, .f32⟩
  | .hbm, ⟨25, _⟩ => ⟨S16x3x65536, .f32⟩
  | .hbm, ⟨26, _⟩ => ⟨S_, .f32⟩
  | .hbm, ⟨27, _⟩ => ⟨S16x3x65536, .f32⟩
  | .hbm, ⟨28, _⟩ => ⟨S16x3x65536, .f32⟩
  | .hbm, ⟨29, _⟩ => ⟨S_, .f32⟩
  | .hbm, ⟨30, _⟩ => ⟨S16x3x65536, .f32⟩
  | .hbm, ⟨31, _⟩ => ⟨S16x3x65536, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S16x3x65536, .f32⟩
  | .hbm, ⟨36, _⟩ => ⟨S16x3x65536, .f32⟩
  | .hbm, ⟨37, _⟩ => ⟨S_, .f32⟩
  | .hbm, ⟨38, _⟩ => ⟨S16x3x65536, .f32⟩
  | .hbm, ⟨39, _⟩ => ⟨S16x3x65536, .f32⟩
  | .hbm, ⟨40, _⟩ => ⟨S16x3x65536, .f32⟩
  | .hbm, ⟨41, _⟩ => ⟨S16x3x65536, .i32⟩
  | .hbm, ⟨42, _⟩ => ⟨S16x1x65536, .i32⟩
  | .hbm, ⟨43, _⟩ => ⟨S16x65536, .i32⟩
  | .hbm, ⟨44, _⟩ => ⟨S_, .i32⟩
  | .hbm, ⟨45, _⟩ => ⟨S16x65536, .i32⟩
  | .hbm, ⟨46, _⟩ => ⟨S16x65536, .i32⟩
  | .hbm, ⟨47, _⟩ => ⟨S16x1x65536, .i32⟩
  | .hbm, ⟨48, _⟩ => ⟨S16x65536, .i32⟩
  | .hbm, ⟨49, _⟩ => ⟨S16x65536, .i32⟩
  | .hbm, ⟨50, _⟩ => ⟨S_, .i32⟩
  | .hbm, ⟨51, _⟩ => ⟨S16x65536, .i32⟩
  | .hbm, ⟨52, _⟩ => ⟨S16x65536, .i32⟩
  | .hbm, ⟨53, _⟩ => ⟨S16x1x65536, .i32⟩
  | .hbm, ⟨54, _⟩ => ⟨S16x65536, .i32⟩
  | .hbm, ⟨55, _⟩ => ⟨S16x65536, .i32⟩
  | .hbm, ⟨56, _⟩ => ⟨S16, .i32⟩
  | .hbm, ⟨57, _⟩ => ⟨S16x1, .i32⟩
  | .hbm, ⟨58, _⟩ => ⟨S_, .i32⟩
  | .hbm, ⟨59, _⟩ => ⟨S16x1, .i32⟩
  | .hbm, ⟨60, _⟩ => ⟨S16x1, .i32⟩
  | .hbm, ⟨61, _⟩ => ⟨S16x65536, .i32⟩
  | .hbm, ⟨62, _⟩ => ⟨S16x65536, .i32⟩
  | .hbm, ⟨63, _⟩ => ⟨S1048576, .i32⟩
  | .hbm, ⟨64, _⟩ => ⟨S16x65536x64, .f32⟩
  | .hbm, ⟨65, _⟩ => ⟨S1048576x64, .f32⟩
  | .hbm, ⟨66, _⟩ => ⟨S_, .f32⟩
  | .hbm, ⟨67, _⟩ => ⟨S524288x64, .f32⟩
  | .hbm, ⟨68, _⟩ => ⟨S1048576x1, .i32⟩
  | .hbm, ⟨69, _⟩ => ⟨S524288x64, .f32⟩
  | .hbm, ⟨70, _⟩ => ⟨S_, .f32⟩
  | .hbm, ⟨71, _⟩ => ⟨S1048576, .f32⟩
  | .hbm, ⟨72, _⟩ => ⟨S_, .f32⟩
  | .hbm, ⟨73, _⟩ => ⟨S524288, .f32⟩
  | .hbm, ⟨74, _⟩ => ⟨S1048576x1, .i32⟩
  | .hbm, ⟨75, _⟩ => ⟨S524288, .f32⟩
  | .hbm, ⟨76, _⟩ => ⟨S_, .f32⟩
  | .hbm, ⟨77, _⟩ => ⟨S524288, .f32⟩
  | .hbm, ⟨78, _⟩ => ⟨S524288, .f32⟩
  | .hbm, ⟨79, _⟩ => ⟨S524288x1, .f32⟩
  | .hbm, ⟨80, _⟩ => ⟨S524288x64, .f32⟩
  | .hbm, ⟨81, _⟩ => ⟨S524288x64, .f32⟩
  | .hbm, ⟨82, _⟩ => ⟨S16x32x32x32x64, .f32⟩
  | .hbm, ⟨83, _⟩ => ⟨S16x64x32x32x32, .f32⟩
  | _, _ => ⟨S16x64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  reducesTo_S16x3x65536_S16x3_d2 : S16x3x65536.ReducesTo [2] S16x3
  h_S_ : 0 < S_.numel
  bcast_S16x3_S16x3x1_0_1 : S16x3.BroadcastsInDim S16x3x1 (![0, 1] : Fin 2 → Fin S16x3x1.rank)
  bcast_S_S16x3x1 : S_.BroadcastsInDim S16x3x1 (![] : Fin 0 → Fin S16x3x1.rank)
  bcast_S16x3x1_S16x3x65536_0_1_2 : S16x3x1.BroadcastsInDim S16x3x65536 (![0, 1, 2] : Fin 3 → Fin S16x3x65536.rank)
  reducesTo_S16x3x65536_S16x65536_d1 : S16x3x65536.ReducesTo [1] S16x65536
  bcast_S16x65536_S16x1x65536_0_2 : S16x65536.BroadcastsInDim S16x1x65536 (![0, 2] : Fin 2 → Fin S16x1x65536.rank)
  reducesTo_S16x1x65536_S16x1_d2 : S16x1x65536.ReducesTo [2] S16x1
  bcast_S16x1_S16x1x1_0_1 : S16x1.BroadcastsInDim S16x1x1 (![0, 1] : Fin 2 → Fin S16x1x1.rank)
  bcast_S_S16x1x1 : S_.BroadcastsInDim S16x1x1 (![] : Fin 0 → Fin S16x1x1.rank)
  bcast_S16x1x1_S16x3x65536_0_1_2 : S16x1x1.BroadcastsInDim S16x3x65536 (![0, 1, 2] : Fin 3 → Fin S16x3x65536.rank)
  bcast_S_S16x3x65536 : S_.BroadcastsInDim S16x3x65536 (![] : Fin 0 → Fin S16x3x65536.rank)
  slices_S16x3x65536_S16x1x65536_0_0_0 : S16x3x65536.Slices ![0, 0, 0] S16x1x65536
  shapeCasts_S16x1x65536_S16x65536 : S16x1x65536.ShapeCasts S16x65536
  bcast_S_S16x65536 : S_.BroadcastsInDim S16x65536 (![] : Fin 0 → Fin S16x65536.rank)
  slices_S16x3x65536_S16x1x65536_0_1_0 : S16x3x65536.Slices ![0, 1, 0] S16x1x65536
  slices_S16x3x65536_S16x1x65536_0_2_0 : S16x3x65536.Slices ![0, 2, 0] S16x1x65536
  bcast_S16_S16x1_0 : S16.BroadcastsInDim S16x1 (![0] : Fin 1 → Fin S16x1.rank)
  bcast_S_S16x1 : S_.BroadcastsInDim S16x1 (![] : Fin 0 → Fin S16x1.rank)
  bcast_S16x1_S16x65536_0_1 : S16x1.BroadcastsInDim S16x65536 (![0, 1] : Fin 2 → Fin S16x65536.rank)
  shapeCasts_S16x65536_S1048576 : S16x65536.ShapeCasts S1048576
  transposes_S16x64x65536_S16x65536x64_0_2_1 : S16x64x65536.Transposes [0, 2, 1] S16x65536x64
  shapeCasts_S16x65536x64_S1048576x64 : S16x65536x64.ShapeCasts S1048576x64
  bcast_S_S524288x64 : S_.BroadcastsInDim S524288x64 (![] : Fin 0 → Fin S524288x64.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  shapeCasts_S524288x64_S16x32x32x32x64 : S524288x64.ShapeCasts S16x32x32x32x64
  transposes_S16x32x32x32x64_S16x64x32x32x32_0_4_1_2_3 : S16x32x32x32x64.Transposes [0, 4, 1, 2, 3] S16x64x32x32x32
  scatter_S524288x64_S1048576x1_S1048576x64_1_0_0_1_wf : ScatterDims.WF S524288x64 S1048576x1 S1048576x64 [1] [0] [0] 1
  scatter_S524288_S1048576x1_S1048576_n_0_0_1_wf : ScatterDims.WF S524288 S1048576x1 S1048576 [] [0] [0] 1

variable [Facts₀]

def scatter_S524288x64_S1048576x1_S1048576x64_1_0_0_1 : ScatterDims S524288x64 S1048576x1 S1048576x64 where
  updateWindowDims := [1]
  insertedWindowDims := [0]
  scatterDimsToOperandDims := [0]
  indexVectorDim := 1
  wf := scatter_S524288x64_S1048576x1_S1048576x64_1_0_0_1_wf
def scatter_S524288_S1048576x1_S1048576_n_0_0_1 : ScatterDims S524288 S1048576x1 S1048576 where
  updateWindowDims := []
  insertedWindowDims := [0]
  scatterDimsToOperandDims := [0]
  indexVectorDim := 1
  wf := scatter_S524288_S1048576x1_S1048576_n_0_0_1_wf

class Facts : Prop extends Facts₀ where

variable [Facts]
-- ==== Proof.KernelRun.lean ====
/-
  The idealized kernel's run with its two results NAMED: every weakly fair execution of @main terminates, nothing
  faulting, with the grid buffer and the normalised-coordinate buffer at the contents the last segment boundary
  gives them (`W4`: the fold of the host operations and of the two regions' write-backs from the launch memory),
  and the two argument arrays as launched. The proof is the frame's: the same segments, the same launch, the last
  thread state read against the final state at two more buffers.
-/
import proofs.«146283_j15436112462068_2_alg».proof.Proof.FrameKernelIdeal

set_option maxRecDepth 16384

noncomputable section

namespace Cert.KernelIdeal.KRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results at the last boundary's contents and the arguments unchanged. -/
theorem run_values : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_v0_0) = W4 m ρ c (Proc.devRef .tc main_v0_0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       h c _ (mem_uc main_v0_0 (by decide)),
       (h c _ (mem_uc main_arg0 (by decide))).trans (W4_main_arg0 m ρ c),
       (h c _ (mem_uc main_arg1 (by decide))).trans (W4_main_arg1 m ρ c)⟩)

end Cert.KernelIdeal.KRun

end
-- ==== Proof.Spec.lean ====
/-
  The voxelization, index by index, as ONE function of the two argument arrays over the extended reals.

  Coordinates `C : [16, 3, 65536]` (cloud, axis, point) and features `X : [16, 64, 65536]` (cloud, channel, point).
  Per cloud `b`: each axis is centred on its mean over the points (`cen`), a point's norm is the root of the sum of its
  three squared centred coordinates (`nrm`), `mx` is the largest norm of the cloud (the fold of `max` from -∞ over the
  points), and the normalised coordinate `nc` is `cen / (2·mx + 0) + 1/2`, scaled by 32 and clipped to [0, 31].
  A point's voxel coordinates are `nc` rounded to nearest-even and converted to integers (`vox`); its flat voxel index
  is `(vx·32 + vy)·32 + vz + b·32768` in 32-bit arithmetic (`flat`; `pidx` is the same at the flat point number
  `p = b·65536 + n`). Segment `seg` of the grid collects the points whose flat index, read signed, is `seg`:
  `ssum` is the sum of a channel over them, `scnt` the sum of ones, and a grid cell is `(0 + ssum) / max (0 + scnt) 1`.
  The float constants stay the words the two programs print (the same word on both sides is never evaluated).
-/
import Idealize.ShloMosaic.PureOps.Ideal
import Idealize.ShloMosaic.Lib.ValueIdx

noncomputable section

namespace Cert.Vox

open Idealize.ShloMosaic Idealize.ShloMosaic.ValueIdx

/-- The coordinate array's contents: `[16, 3, 65536]` extended reals. -/
abbrev Coords := (⟨3, ![16, 3, 65536]⟩ : Shape).Idx → EReal
/-- The feature array's contents: `[16, 64, 65536]` extended reals. -/
abbrev Feats := (⟨3, ![16, 64, 65536]⟩ : Shape).Idx → EReal

/-- The mean of axis `k` of cloud `b` over its 65536 points. -/
def mean (C : Coords) (b : Fin 16) (k : Fin 3) : EReal :=
  Ideal.div (∑ n : Fin 65536, C (ix3 b k n)) (Ideal.ofBits .f32 0x47800000#32)

/-- The centred coordinate. -/
def cen (C : Coords) (b : Fin 16) (k : Fin 3) (n : Fin 65536) : EReal := C (ix3 b k n) - mean C b k

/-- A point's Euclidean norm after centring. -/
def nrm (C : Coords) (b : Fin 16) (n : Fin 65536) : EReal := Ideal.sqrt (∑ k : Fin 3, cen C b k n * cen C b k n)

/-- The largest norm of the cloud: the fold of `max` from -∞ over its points. -/
def mx (C : Coords) (b : Fin 16) : EReal :=
  (Finset.univ : Finset (Fin 65536)).fold max (Ideal.ofBits .f32 0xFF800000#32) (fun n => nrm C b n)

/-- The normalised, scaled and clipped coordinate: the second result. -/
def nc (C : Coords) (b : Fin 16) (k : Fin 3) (n : Fin 65536) : EReal :=
  min (Ideal.ofBits .f32 0x41F80000#32) (max (Ideal.ofBits .f32 0x00000000#32)
    ((Ideal.div (cen C b k n) (mx C b * Ideal.ofBits .f32 0x40000000#32 + Ideal.ofBits .f32 0x00000000#32)
        + Ideal.ofBits .f32 0x3F000000#32) * Ideal.ofBits .f32 0x42000000#32))

/-- The integer voxel coordinate: `nc` rounded to nearest, ties to even, then converted. -/
def vox (C : Coords) (b : Fin 16) (k : Fin 3) (n : Fin 65536) : BitVec 32 :=
  Ideal.fptosi 32 (Ideal.liftRound Ideal.roundHalfEven (nc C b k n))

/-- The flat voxel index of point `n` of cloud `b`, in 32-bit arithmetic. -/
def flat (C : Coords) (b : Fin 16) (n : Fin 65536) : BitVec 32 :=
  ((vox C b 0 n * 32#32 + vox C b 1 n) * 32#32 + vox C b 2 n) + BitVec.ofNat 32 b.val * 32768#32

theorem div_lt (p : Fin 1048576) : p.val / 65536 < 16 := by have := p.isLt; omega
theorem mod_lt (p : Fin 1048576) : p.val % 65536 < 65536 := Nat.mod_lt _ (by decide)

/-- The cloud of flat point number `p = b·65536 + n`. -/
def pb (p : Fin 1048576) : Fin 16 := ⟨p.val / 65536, div_lt p⟩
/-- Its point number within the cloud. -/
def pn (p : Fin 1048576) : Fin 65536 := ⟨p.val % 65536, mod_lt p⟩

/-- The flat voxel index at a flat point number. -/
def pidx (C : Coords) (p : Fin 1048576) : BitVec 32 := flat C (pb p) (pn p)

/-- The points that land in segment `seg`: those whose flat index, read signed, is `seg`. -/
def hits (C : Coords) (seg : Fin 524288) : Finset (Fin 1048576) :=
  Finset.univ.filter fun p => (pidx C p).toInt = (seg.val : Int)

/-- The sum of channel `ch` over the points of segment `seg`. -/
def ssum (X : Feats) (C : Coords) (seg : Fin 524288) (ch : Fin 64) : EReal :=
  ∑ p ∈ hits C seg, X (ix3 (pb p) ch (pn p))

/-- The number of points of segment `seg`, as a sum of ones. -/
def scnt (C : Coords) (seg : Fin 524288) : EReal :=
  ∑ _p ∈ hits C seg, Ideal.ofBits .f32 0x3F800000#32

theorem seg_lt (b : Fin 16) (v : Fin 32768) : b.val * 32768 + v.val < 524288 := by
  have := b.isLt; have := v.isLt; omega
/-- Segment number of voxel `v` of cloud `b`. -/
def segOf (b : Fin 16) (v : Fin 32768) : Fin 524288 := ⟨b.val * 32768 + v.val, seg_lt b v⟩

/-- The averaged cell of segment `seg`, channel `ch`. -/
def cell (X : Feats) (C : Coords) (seg : Fin 524288) (ch : Fin 64) : EReal :=
  Ideal.div (Ideal.ofBits .f32 0x00000000#32 + ssum X C seg ch)
    (max (Ideal.ofBits .f32 0x00000000#32 + scnt C seg) (Ideal.ofBits .f32 0x3F800000#32))

theorem vxl_lt (x y z : Fin 32) : x.val * 1024 + y.val * 32 + z.val < 32768 := by
  have := x.isLt; have := y.isLt; have := z.isLt; omega
/-- The voxel number of grid position (x, y, z). -/
def vxl (x y z : Fin 32) : Fin 32768 := ⟨x.val * 1024 + y.val * 32 + z.val, vxl_lt x y z⟩

/-- The first result: the grid at (cloud, channel, x, y, z). -/
def grid (X : Feats) (C : Coords) (b : Fin 16) (ch : Fin 64) (x y z : Fin 32) : EReal :=
  cell X C (segOf b (vxl x y z)) ch

end Cert.Vox

end
-- ==== Proof.Region0Payload.lean ====
/-
  The first kernel's arithmetic on one cloud's block of coordinates, read index by index: the stored normalised
  coordinates are `Vox.nc` and the stored flat voxel indices are `Vox.flat` of the cloud the block is.

  The float part is read stage by stage. Each row of the block as a `[3, 65536]` matrix has its mean over the columns
  subtracted (`centred`); each column's norm is the root of the sum of its three squared entries (`norms`); every
  entry is divided by twice the largest norm plus zero (`scale`), shifted by one half, scaled by 32 and clipped to
  [0, 31] (`clipped`). A stage is stated over a variable matrix and read at an index by the reading of each layout
  operation and reduction in it; the payload is the stages composed, and the specification names the same values.
  The integer part rounds to nearest-even, converts, and combines the three rows as `(v₀·32 + v₁)·32 + v₂ + b·32768`.
-/
import proofs.«146283_j15436112462068_2_alg».proof.Proof.Gen.KernelIdeal.Skeleton
import proofs.«146283_j15436112462068_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Region0

open Idealize.ShloMosaic Idealize.ShloMosaic.ValueIdx Cert.KernelIdeal Cert.KernelIdeal.Gen

/-! ## Columns, single entries and one-axis reductions read at an index -/

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The sum of a `[3, 65536]` matrix over its columns, at row `k`. -/
theorem rowSum_apply (v : FVec Ideal S3x65536 .f32) (k : Fin 3) :
    multiReduction .add [1] S3 v 0x00000000#32 reduces_S3x65536_S3 (.inl rfl) rfl (ix1 k) = ∑ n : Fin 65536, v (ix2 k n) := by
  refine (Ideal.multiReduction_add_single v 0x00000000#32 reduces_S3x65536_S3 (.inl rfl) rfl (ix1 k)).trans ?_
  refine Finset.sum_congr rfl fun n _ => congrArg v ?_
  funext ax
  match ax with
  | ⟨0, _⟩ => exact Fin.ext rfl
  | ⟨1, _⟩ => exact Fin.ext rfl

/-- The sum of a `[3, 65536]` matrix over its rows, at column `n`. -/
theorem colSum_apply (v : FVec Ideal S3x65536 .f32) (n : Fin 65536) :
    multiReduction .add [0] S65536 v 0x00000000#32 reduces_S3x65536_S65536 (.inl rfl) rfl (ix1 n) = ∑ k : Fin 3, v (ix2 k n) := by
  refine (Ideal.multiReduction_add_single v 0x00000000#32 reduces_S3x65536_S65536 (.inl rfl) rfl (ix1 n)).trans ?_
  refine Finset.sum_congr rfl fun k _ => congrArg v ?_
  funext ax
  match ax with
  | ⟨0, _⟩ => exact Fin.ext rfl
  | ⟨1, _⟩ => exact Fin.ext rfl

/-- The maximum of a one-row matrix `[1, 65536]` over its columns: the fold of `max` from the accumulator's value. -/
theorem rowMax_apply (v : FVec Ideal S1x65536 .f32) :
    multiReduction .maximumf [1] S1 v 0xFF800000#32 reduces_S1x65536_S1 (.inl rfl) rfl (ix1 (0 : Fin 1))
      = (Finset.univ : Finset (Fin 65536)).fold max (Ideal.ofBits .f32 0xFF800000#32) (fun n => v (ix2 (0 : Fin 1) n)) := by
  refine (Ideal.multiReduction_maximumf_single v 0xFF800000#32 reduces_S1x65536_S1 (.inl rfl) rfl (ix1 (0 : Fin 1))).trans ?_
  refine Finset.fold_congr fun n _ => congrArg v ?_
  funext ax
  match ax with
  | ⟨0, _⟩ => exact Fin.ext rfl
  | ⟨1, _⟩ => exact Fin.ext rfl

/-! ## The stages of the normalisation, over variable vectors -/

/-- A root taken entry by entry. -/
theorem sqrt_apply {s : Shape} (x : FVec Ideal s .f32) (i : s.Idx) : sqrt x i = Ideal.sqrt (x i) := rfl

/-- The block as a matrix reads the block under its unit axis. -/
theorem blk_apply (x0 : Vec Ideal S1x3x65536 .f32) (k : Fin 3) (n : Fin 65536) :
    shapeCast S3x65536 x0 shapeCasts_S1x3x65536_S3x65536 (ix2 k n) = x0 (ix3 (0 : Fin 1) k n) :=
  shapeCast_1ab_ab_apply x0 shapeCasts_S1x3x65536_S3x65536 k n

/-- Each row's mean over its 65536 columns, copied along the row. -/
def rowMean (v : FVec Ideal S3x65536 .f32) : FVec Ideal S3x65536 .f32 :=
  broadcastTo S3x65536
    (divf (shapeCast S3x1 (multiReduction .add [1] S3 v 0x00000000#32 reduces_S3x65536_S3 (.inl rfl) rfl) shapeCasts_S3_S3x1)
      (broadcast S3x1 (Scalar.ofBits .f32 0x47800000#32))) broadcasts_S3x1_S3x65536

theorem rowMean_apply (v : FVec Ideal S3x65536 .f32) (k : Fin 3) (n : Fin 65536) :
    rowMean v (ix2 k n) = Ideal.div (∑ m : Fin 65536, v (ix2 k m)) (Ideal.ofBits .f32 0x47800000#32) := by
  unfold rowMean
  refine (broadcastTo_a1_ab_apply _ broadcasts_S3x1_S3x65536 k n).trans ?_
  rw [divf_apply, broadcast_apply, Ideal.ofBits_def, shapeCast_a_a1_apply _ shapeCasts_S3_S3x1 k 0, rowSum_apply]

/-- Each column's Euclidean norm: the root of the sum of its three squared entries, as one row. -/
def norms (w : FVec Ideal S3x65536 .f32) : FVec Ideal S1x65536 .f32 :=
  sqrt (shapeCast S1x65536 (multiReduction .add [0] S65536 (mulf w w) 0x00000000#32 reduces_S3x65536_S65536 (.inl rfl) rfl)
    shapeCasts_S65536_S1x65536)

theorem norms_apply (w : FVec Ideal S3x65536 .f32) (n : Fin 65536) :
    norms w (ix2 (0 : Fin 1) n) = Ideal.sqrt (∑ k : Fin 3, w (ix2 k n) * w (ix2 k n)) := by
  unfold norms
  rw [sqrt_apply, shapeCast_a_1a_apply _ shapeCasts_S65536_S1x65536 0 n, colSum_apply]
  exact congrArg Ideal.sqrt (Finset.sum_congr rfl fun k _ => mulf_apply w w (ix2 k n))

/-- Twice the largest entry of a row, plus zero, copied to every entry of a `[3, 65536]` matrix. -/
def scale (r : FVec Ideal S1x65536 .f32) : FVec Ideal S3x65536 .f32 :=
  broadcastTo S3x65536
    (addf (mulf (shapeCast S1x1 (multiReduction .maximumf [1] S1 r 0xFF800000#32 reduces_S1x65536_S1 (.inl rfl) rfl) shapeCasts_S1_S1x1)
        (broadcast S1x1 (Scalar.ofBits .f32 0x40000000#32)))
      (broadcast S1x1 (Scalar.ofBits .f32 0x00000000#32))) broadcasts_S1x1_S3x65536

theorem scale_apply (r : FVec Ideal S1x65536 .f32) (k : Fin 3) (n : Fin 65536) :
    scale r (ix2 k n)
      = (Finset.univ : Finset (Fin 65536)).fold max (Ideal.ofBits .f32 0xFF800000#32) (fun m => r (ix2 (0 : Fin 1) m))
          * Ideal.ofBits .f32 0x40000000#32 + Ideal.ofBits .f32 0x00000000#32 := by
  unfold scale
  refine (broadcastTo_11_ab_apply _ broadcasts_S1x1_S3x65536 k n).trans ?_
  rw [addf_apply, mulf_apply, broadcast_apply, broadcast_apply, Ideal.ofBits_def, Ideal.ofBits_def,
    shapeCast_a_1a_apply _ shapeCasts_S1_S1x1 0 0, rowMax_apply]

/-- The centred block. -/
def centred (x0 : Vec Ideal S1x3x65536 .f32) : FVec Ideal S3x65536 .f32 :=
  subf (shapeCast S3x65536 x0 shapeCasts_S1x3x65536_S3x65536) (rowMean (shapeCast S3x65536 x0 shapeCasts_S1x3x65536_S3x65536))

/-- A matrix shifted by one half, scaled by 32 and clipped to [0, 31], entry by entry. -/
def clipped (u : FVec Ideal S3x65536 .f32) : FVec Ideal S3x65536 .f32 :=
  minimumf (broadcast S3x65536 (Scalar.ofBits .f32 0x41F80000#32))
    (maximumf (broadcast S3x65536 (Scalar.ofBits .f32 0x00000000#32))
      (mulf (addf u (broadcast S3x65536 (Scalar.ofBits .f32 0x3F000000#32)))
        (broadcast S3x65536 (Scalar.ofBits .f32 0x42000000#32))))

theorem clipped_apply (u : FVec Ideal S3x65536 .f32) (j : S3x65536.Idx) :
    clipped u j = min (Ideal.ofBits .f32 0x41F80000#32) (max (Ideal.ofBits .f32 0x00000000#32)
      ((u j + Ideal.ofBits .f32 0x3F000000#32) * Ideal.ofBits .f32 0x42000000#32)) := by
  unfold clipped
  rw [minimumf_apply, maximumf_apply, mulf_apply, addf_apply, broadcast_apply, broadcast_apply, broadcast_apply,
    broadcast_apply, Ideal.ofBits_def, Ideal.ofBits_def, Ideal.ofBits_def, Ideal.ofBits_def]

/-- The payload is its stages composed: the printed term with the stages named. -/
theorem pay2_eq (x0 : Vec Ideal S1x3x65536 .f32) :
    k0_pay2 (F := Ideal) x0 = clipped (divf (centred x0) (scale (norms (centred x0)))) := rfl

theorem centred_apply (C : Cert.Vox.Coords) (b : Fin 16) (x0 : Vec Ideal S1x3x65536 .f32)
    (hx : ∀ (k : Fin 3) (n : Fin 65536), x0 (ix3 (0 : Fin 1) k n) = C (ix3 b k n)) (k : Fin 3) (n : Fin 65536) :
    centred x0 (ix2 k n) = Cert.Vox.cen C b k n := by
  unfold centred Cert.Vox.cen Cert.Vox.mean
  rw [subf_apply, blk_apply, rowMean_apply, hx]
  refine congrArg (fun t => C (ix3 b k n) - Ideal.div t (Ideal.ofBits .f32 0x47800000#32)) ?_
  exact Finset.sum_congr rfl fun m _ => (blk_apply x0 k m).trans (hx k m)

theorem norms_centred_apply (C : Cert.Vox.Coords) (b : Fin 16) (x0 : Vec Ideal S1x3x65536 .f32)
    (hx : ∀ (k : Fin 3) (n : Fin 65536), x0 (ix3 (0 : Fin 1) k n) = C (ix3 b k n)) (m : Fin 65536) :
    norms (centred x0) (ix2 (0 : Fin 1) m) = Cert.Vox.nrm C b m := by
  rw [norms_apply]
  unfold Cert.Vox.nrm
  refine congrArg Ideal.sqrt (Finset.sum_congr rfl fun k _ => ?_)
  rw [centred_apply C b x0 hx]

/-- The clipped normalised coordinates of the block that is cloud `b` of `C`. -/
theorem pay2_apply (C : Cert.Vox.Coords) (b : Fin 16) (x0 : Vec Ideal S1x3x65536 .f32)
    (hx : ∀ (k : Fin 3) (n : Fin 65536), x0 (ix3 (0 : Fin 1) k n) = C (ix3 b k n)) (k : Fin 3) (n : Fin 65536) :
    k0_pay2 (F := Ideal) x0 (ix2 k n) = Cert.Vox.nc C b k n := by
  rw [pay2_eq, clipped_apply, divf_apply, scale_apply, centred_apply C b x0 hx]
  unfold Cert.Vox.nc Cert.Vox.mx
  have hn : (fun m => norms (centred x0) (ix2 (0 : Fin 1) m)) = fun m => Cert.Vox.nrm C b m :=
    funext fun m => norms_centred_apply C b x0 hx m
  rw [hn]

/-! ## The stored coordinates under a leading unit axis -/

theorem pay3_eq (x0 : Vec Ideal S1x3x65536 .f32) :
    k0_pay3 (F := Ideal) x0 = shapeCast S1x3x65536 (k0_pay2 (F := Ideal) x0) shapeCasts_S3x65536_S1x3x65536 := rfl

/-- What the first store writes: the same, under a leading unit axis. -/
theorem pay3_apply (C : Cert.Vox.Coords) (b : Fin 16) (x0 : Vec Ideal S1x3x65536 .f32)
    (hx : ∀ (k : Fin 3) (n : Fin 65536), x0 (ix3 (0 : Fin 1) k n) = C (ix3 b k n)) (k : Fin 3) (n : Fin 65536) :
    k0_pay3 (F := Ideal) x0 (ix3 (0 : Fin 1) k n) = Cert.Vox.nc C b k n := by
  rw [pay3_eq, shapeCast_ab_1ab_apply _ shapeCasts_S3x65536_S1x3x65536 0 k n, pay2_apply C b x0 hx]

/-! ## The voxel coordinates and the flat index -/

/-- An integer sum taken entry by entry. -/
theorem addi_apply {s : Shape} {w : ℕ} (x y : IVec s w) (i : s.Idx) : addi x y i = x i + y i := rfl

/-- An integer product taken entry by entry. -/
theorem muli_apply {s : Shape} {w : ℕ} (x y : IVec s w) (i : s.Idx) : muli x y i = x i * y i := rfl

/-- A scalar integer product is the product of the words. -/
theorem scalar_muli (x y : BitVec 32) : Scalar.muli x y = x * y := rfl

/-- Rounding to nearest-even and converting to 32-bit integers, entry by entry. -/
theorem fptosi_roundeven_apply (u : FVec Ideal S3x65536 .f32) (i : S3x65536.Idx) :
    fptosi 32 (roundeven u) i = Ideal.fptosi 32 (Ideal.liftRound Ideal.roundHalfEven (u i)) := rfl

theorem pay4_eq (x0 : Vec Ideal S1x3x65536 .f32) :
    k0_pay4 (F := Ideal) x0 = fptosi 32 (roundeven (k0_pay2 (F := Ideal) x0)) := rfl

/-- The integer voxel coordinates of the block that is cloud `b` of `C`. -/
theorem pay4_apply (C : Cert.Vox.Coords) (b : Fin 16) (x0 : Vec Ideal S1x3x65536 .f32)
    (hx : ∀ (k : Fin 3) (n : Fin 65536), x0 (ix3 (0 : Fin 1) k n) = C (ix3 b k n)) (k : Fin 3) (n : Fin 65536) :
    k0_pay4 (F := Ideal) x0 (ix2 k n) = Cert.Vox.vox C b k n := by
  unfold Cert.Vox.vox
  rw [pay4_eq, fptosi_roundeven_apply, pay2_apply C b x0 hx]

theorem pay5_eq (x0 : Vec Ideal S1x3x65536 .f32) :
    k0_pay5 (F := Ideal) x0
      = muli (addi (muli (extractStridedSlice S1x65536 ![0, 0] (k0_pay4 (F := Ideal) x0) slices_S3x65536_o0_0_S1x65536)
            (broadcast S1x65536 32#32))
          (extractStridedSlice S1x65536 ![1, 0] (k0_pay4 (F := Ideal) x0) slices_S3x65536_o1_0_S1x65536))
        (broadcast S1x65536 32#32) := rfl

/-- The first two voxel coordinates combined: `(v₀·32 + v₁)·32`. -/
theorem pay5_apply (C : Cert.Vox.Coords) (b : Fin 16) (x0 : Vec Ideal S1x3x65536 .f32)
    (hx : ∀ (k : Fin 3) (n : Fin 65536), x0 (ix3 (0 : Fin 1) k n) = C (ix3 b k n)) (n : Fin 65536) :
    k0_pay5 (F := Ideal) x0 (ix2 (0 : Fin 1) n)
      = (Cert.Vox.vox C b 0 n * 32#32 + Cert.Vox.vox C b 1 n) * 32#32 := by
  rw [pay5_eq, muli_apply, addi_apply, muli_apply, broadcast_apply,
    slice2_axis0_apply 0 _ slices_S3x65536_o0_0_S1x65536 (0 : Fin 1) n (0 : Fin 3) rfl,
    slice2_axis0_apply 1 _ slices_S3x65536_o1_0_S1x65536 (0 : Fin 1) n (1 : Fin 3) rfl,
    pay4_apply C b x0 hx, pay4_apply C b x0 hx]

theorem pay1_eq (arg0 : BitVec 32) (v32 : IVec S3x65536 32) (v39 : IVec S1x65536 32) :
    k0_pay1 arg0 v32 v39
      = shapeCast S1x1x65536
          (addi (addi v39 (extractStridedSlice S1x65536 ![2, 0] v32 slices_S3x65536_o2_0_S1x65536))
            (broadcast S1x65536 (Scalar.muli arg0 32768#32))) shapeCasts_S1x65536_S1x1x65536 := rfl

/-- What the second store writes: the flat voxel index of each point of cloud `b`. -/
theorem pay1_apply (C : Cert.Vox.Coords) (b : Fin 16) (x0 : Vec Ideal S1x3x65536 .f32)
    (hx : ∀ (k : Fin 3) (n : Fin 65536), x0 (ix3 (0 : Fin 1) k n) = C (ix3 b k n)) (n : Fin 65536) :
    k0_pay1 (BitVec.ofNat 32 b.val) (k0_pay4 (F := Ideal) x0) (k0_pay5 (F := Ideal) x0) (ix3 (0 : Fin 1) (0 : Fin 1) n)
      = Cert.Vox.flat C b n := by
  unfold Cert.Vox.flat
  rw [pay1_eq, shapeCast_ab_1ab_apply _ shapeCasts_S1x65536_S1x1x65536 0 0 n, addi_apply, addi_apply, broadcast_apply,
    scalar_muli, slice2_axis0_apply 2 _ slices_S3x65536_o2_0_S1x65536 (0 : Fin 1) n (2 : Fin 3) rfl,
    pay5_apply C b x0 hx, pay4_apply C b x0 hx]

end Cert.KernelIdeal.Region0

end
-- ==== Proof.Region0Value.lean ====
/-
  The first kernel's two output arrays after its run, as functions of the coordinate array the region is entered
  with: the normalised coordinates `Vox.nc` and the flat voxel indices `Vox.flat`, cloud by cloud.
-/
import proofs.«146283_j15436112462068_2_alg».proof.Proof.FrameKernelIdeal
import proofs.«146283_j15436112462068_2_alg».proof.Proof.Spec
import proofs.«146283_j15436112462068_2_alg».proof.Proof.Region0Payload
import Idealize.ShloMosaic.Lib.ValueIdx
import Idealize.ShloMosaic.Lib.Pipeline.Value

noncomputable section

namespace Cert.KernelIdeal.Region0

open Idealize.ShloMosaic Idealize.ShloMosaic.TcCoe Idealize.ShloMosaic.ValueIdx Idealize.SL.Sem Cert.KernelIdeal Cert.KernelIdeal.Gen

/-- The zero offsets of a rank-3 block, however spelt. -/
theorem zero3 : (![0, 0, 0] : Fin 3 → Nat) = fun _ => 0 := funext fun a => by fin_cases a <;> rfl

/-- The three index maps over the grid: point `t` names block `(t, 0, 0)` of each array, and its grid coordinate is `t`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ (grid0.coords t 0).val = t.val :=
  (by decide +kernel : ∀ t : Fin grid0.N, _)

/-- The normalised coordinates of all sixteen clouds as one array. -/
def ncArr (C : Cert.Vox.Coords) : S16x3x65536.Idx → EReal := fun i => Cert.Vox.nc C (i 0) (i 1) (i 2)

/-- The flat voxel indices of all sixteen clouds as one array. -/
def flatArr (C : Cert.Vox.Coords) : S16x1x65536.Idx → BitVec 32 := fun i => Cert.Vox.flat C (i 0) (i 2)

/-- One element of a block's first store is the array of normalised coordinates at the block's place. -/
theorem nc_at (C : Cert.Vox.Coords) (b : Fin 16) (x0 : Vec Ideal S1x3x65536 .f32)
    (hx : ∀ (k : Fin 3) (n : Fin 65536), x0 (ix3 (0 : Fin 1) k n) = C (ix3 b k n))
    (j : S1x3x65536.Idx) (i : S16x3x65536.Idx)
    (h0 : (i 0).val = b.val) (h1 : (i 1).val = (j 1).val) (h2 : (i 2).val = (j 2).val) :
    k0_pay3 (F := Ideal) x0 j = ncArr C i := by
  have ej : j = ix3 (0 : Fin 1) (j 1) (j 2) := by
    refine (eq_ix3 j).trans ?_
    congr 1
    exact Fin.ext (by have h : (j 0).val < 1 := (j 0).isLt; show (j 0).val = 0; omega)
  have ei : i = ix3 b (j 1) (j 2) := by
    refine (eq_ix3 i).trans ?_
    congr 1
    · exact Fin.ext h0
    · exact Fin.ext h1
    · exact Fin.ext h2
  rw [ej, ei]
  exact pay3_apply C b x0 hx (j 1) (j 2)

/-- Likewise one element of a block's second store is the array of flat voxel indices at the block's place. -/
theorem flat_at (C : Cert.Vox.Coords) (b : Fin 16) (x0 : Vec Ideal S1x3x65536 .f32)
    (hx : ∀ (k : Fin 3) (n : Fin 65536), x0 (ix3 (0 : Fin 1) k n) = C (ix3 b k n))
    (j : S1x1x65536.Idx) (i : S16x1x65536.Idx)
    (h0 : (i 0).val = b.val) (h2 : (i 2).val = (j 2).val) :
    k0_pay1 (BitVec.ofNat 32 b.val) (k0_pay4 (F := Ideal) x0) (k0_pay5 (F := Ideal) x0) j = flatArr C i := by
  have ej : j = ix3 (0 : Fin 1) (0 : Fin 1) (j 2) := by
    refine (eq_ix3 j).trans ?_
    congr 1
    · exact Fin.ext (by have h : (j 0).val < 1 := (j 0).isLt; show (j 0).val = 0; omega)
    · exact Fin.ext (by have h : (j 1).val < 1 := (j 1).isLt; show (j 1).val = 0; omega)
  have e0 : (i 0 : Fin 16) = b := Fin.ext h0
  have e2 : (i 2 : Fin 65536) = j 2 := Fin.ext h2
  rw [ej]
  refine (pay1_apply C b x0 hx (j 2)).trans ?_
  show Cert.Vox.flat C b (j 2) = Cert.Vox.flat C (i 0) (i 2)
  rw [e0, e2]

/-- The input block at point `t` is cloud `t` of the coordinate array. -/
theorem iblk_apply (V : (c : Dev nD) → (b : Ref sig .tc) → Buf (Elt Ideal) ((c : Thread nD τ).loc b)) (c : Dev nD)
    (t : Fin cfg0.N) (b : Fin 16) (hb : b.val = t.val) (k : Fin 3) (n : Fin 65536) :
    (Cert.KernelIdeal.GenP.iblk0 (F := Ideal) V c 0 t : Vec Ideal S1x3x65536 .f32) (ix3 (0 : Fin 1) k n)
      = (V c main_arg1 : S16x3x65536.Idx → EReal) (ix3 b k n) := by
  obtain ⟨e0, e1, e2, -⟩ := index_facts t
  unfold Cert.KernelIdeal.GenP.iblk0
  rw [View.read_apply]
  show V c main_arg1 _ = V c main_arg1 _
  congr 1
  funext a
  apply Fin.ext
  match a with
  | ⟨0, _⟩ => show win0_0.index t (0 : Fin 3) * 1 + 1 * (0 : Fin 1).val = b.val; rw [e0, hb]; show t.val * 1 + 1 * 0 = t.val; omega
  | ⟨1, _⟩ => show win0_0.index t (1 : Fin 3) * 3 + 1 * k.val = k.val; rw [e1]; omega
  | ⟨2, _⟩ => show win0_0.index t (2 : Fin 3) * 65536 + 1 * n.val = n.val; rw [e2]; omega

/-- The cloud a grid point works on. -/
def cloudOf (t : Fin cfg0.N) : Fin 16 := ⟨t.val, lt_of_lt_of_eq t.isLt N_0⟩

/-- What point `t` writes back to the first output array is its block of the array of normalised coordinates. -/
theorem flushed_nc (V : (c : Dev nD) → (b : Ref sig .tc) → Buf (Elt Ideal) ((c : Thread nD τ).loc b)) (c : Dev nD)
    (t : Fin cfg0.N) :
    (Cert.KernelIdeal.GenP.dat0 (F := Ideal) V c).flushed 1 t
      = ((cfg0.win 1).blk t).view.read (Elt Ideal) (ncArr (V c main_arg1)) := by
  show (cfg0.win 1).cut (grid0.coords t) ((Cert.KernelIdeal.GenP.dat0 (F := Ideal) V c).after 1 t) = _
  rw [Cert.KernelIdeal.GenP.after0_1]
  unfold Cert.KernelIdeal.GenP.out0_1
  rw [View.canon_unit_zero zero3]
  simp only [View.ld_unit_zero (S := S1x3x65536) zero3]
  obtain ⟨-, -, -, e0, e1, e2, -⟩ := index_facts t
  funext j
  refine nc_at (V c main_arg1) (cloudOf t) _ (fun k n => iblk_apply V c t (cloudOf t) rfl k n) j _ ?_ ?_ ?_
  · show win0_1.index t (0 : Fin 3) * 1 + 1 * (j 0).val = t.val
    have h : (j 0).val < 1 := (j 0).isLt
    omega
  · show win0_1.index t (1 : Fin 3) * 3 + 1 * (j 1).val = (j 1).val
    omega
  · show win0_1.index t (2 : Fin 3) * 65536 + 1 * (j 2).val = (j 2).val
    omega

/-- What point `t` writes back to the second output array is its block of the array of flat voxel indices. -/
theorem flushed_flat (V : (c : Dev nD) → (b : Ref sig .tc) → Buf (Elt Ideal) ((c : Thread nD τ).loc b)) (c : Dev nD)
    (t : Fin cfg0.N) :
    (Cert.KernelIdeal.GenP.dat0 (F := Ideal) V c).flushed 2 t
      = ((cfg0.win 2).blk t).view.read (Elt Ideal) (flatArr (V c main_arg1)) := by
  show (cfg0.win 2).cut (grid0.coords t) ((Cert.KernelIdeal.GenP.dat0 (F := Ideal) V c).after 2 t) = _
  rw [Cert.KernelIdeal.GenP.after0_2]
  unfold Cert.KernelIdeal.GenP.out0_2
  rw [View.canon_unit_zero zero3]
  simp only [View.ld_unit_zero (S := S1x3x65536) zero3]
  obtain ⟨-, -, -, -, -, -, e0, e1, e2, eg⟩ := index_facts t
  have ec : BitVec.ofNat 32 (grid0.coords t 0).val = BitVec.ofNat 32 (cloudOf t).val := congrArg (BitVec.ofNat 32) eg
  rw [ec]
  funext j
  refine flat_at (V c main_arg1) (cloudOf t) _ (fun k n => iblk_apply V c t (cloudOf t) rfl k n) j _ ?_ ?_
  · show win0_2.index t (0 : Fin 3) * 1 + 1 * (j 0).val = t.val
    have h : (j 0).val < 1 := (j 0).isLt
    omega
  · show win0_2.index t (2 : Fin 3) * 65536 + 1 * (j 2).val = (j 2).val
    omega

/-- An index of the first output array is in point `t`'s block iff each coordinate is in the block's range on its axis. -/
theorem mem_blk_nc (t : Fin cfg0.N) (i : S16x3x65536.Idx) :
    i ∈ ((cfg0.win 1).blk t).view.set ↔ ∀ a : Fin 3, win0_1.index t a * S1x3x65536.size a ≤ (i a).val ∧ (i a).val < win0_1.index t a * S1x3x65536.size a + S1x3x65536.size a := by
  show i ∈ ((View.whole main_v0_0).slice (win0_1.rect t)).set ↔ _
  rw [View.set_slice_whole, Rect.mem_set_unit]
  exact Iff.rfl

/-- The same for the second output array. -/
theorem mem_blk_flat (t : Fin cfg0.N) (i : S16x1x65536.Idx) :
    i ∈ ((cfg0.win 2).blk t).view.set ↔ ∀ a : Fin 3, win0_2.index t a * S1x1x65536.size a ≤ (i a).val ∧ (i a).val < win0_2.index t a * S1x1x65536.size a + S1x1x65536.size a := by
  show i ∈ ((View.whole main_v0_1).slice (win0_2.rect t)).set ↔ _
  rw [View.set_slice_whole, Rect.mem_set_unit]
  exact Iff.rfl

/-- The grid point of a cloud. -/
def pointOf (b : Fin 16) : Fin cfg0.N := ⟨b.val, lt_of_lt_of_eq b.isLt N_0.symm⟩

/-- Cloud `b` of the first output array is in the block of point `b`. -/
theorem cover_nc (i : S16x3x65536.Idx) :
    ∃ t : Fin cfg0.N, (cfg0.win 1).flush t = true ∧ i ∈ ((cfg0.win 1).blk t).view.set := by
  refine ⟨pointOf (i 0), flush0_1 _, ?_⟩
  rw [mem_blk_nc]
  obtain ⟨-, -, -, e0, e1, e2, -⟩ := index_facts (pointOf (i 0))
  have h1 : (i 1).val < 3 := (i 1).isLt
  have h2 : (i 2).val < 65536 := (i 2).isLt
  intro a
  match a with
  | ⟨0, _⟩ => show win0_1.index (pointOf (i 0)) (0 : Fin 3) * 1 ≤ (i 0).val ∧ (i 0).val < win0_1.index (pointOf (i 0)) (0 : Fin 3) * 1 + 1
              rw [e0]; show (i 0).val * 1 ≤ (i 0).val ∧ (i 0).val < (i 0).val * 1 + 1; omega
  | ⟨1, _⟩ => show win0_1.index (pointOf (i 0)) (1 : Fin 3) * 3 ≤ (i 1).val ∧ (i 1).val < win0_1.index (pointOf (i 0)) (1 : Fin 3) * 3 + 3
              rw [e1]; omega
  | ⟨2, _⟩ => show win0_1.index (pointOf (i 0)) (2 : Fin 3) * 65536 ≤ (i 2).val ∧ (i 2).val < win0_1.index (pointOf (i 0)) (2 : Fin 3) * 65536 + 65536
              rw [e2]; omega

/-- Cloud `b` of the second output array is in the block of point `b`. -/
theorem cover_flat (i : S16x1x65536.Idx) :
    ∃ t : Fin cfg0.N, (cfg0.win 2).flush t = true ∧ i ∈ ((cfg0.win 2).blk t).view.set := by
  refine ⟨pointOf (i 0), flush0_2 _, ?_⟩
  rw [mem_blk_flat]
  obtain ⟨-, -, -, -, -, -, e0, e1, e2, -⟩ := index_facts (pointOf (i 0))
  have h1 : (i 1).val < 1 := (i 1).isLt
  have h2 : (i 2).val < 65536 := (i 2).isLt
  intro a
  match a with
  | ⟨0, _⟩ => show win0_2.index (pointOf (i 0)) (0 : Fin 3) * 1 ≤ (i 0).val ∧ (i 0).val < win0_2.index (pointOf (i 0)) (0 : Fin 3) * 1 + 1
              rw [e0]; show (i 0).val * 1 ≤ (i 0).val ∧ (i 0).val < (i 0).val * 1 + 1; omega
  | ⟨1, _⟩ => show win0_2.index (pointOf (i 0)) (1 : Fin 3) * 1 ≤ (i 1).val ∧ (i 1).val < win0_2.index (pointOf (i 0)) (1 : Fin 3) * 1 + 1
              rw [e1]; omega
  | ⟨2, _⟩ => show win0_2.index (pointOf (i 0)) (2 : Fin 3) * 65536 ≤ (i 2).val ∧ (i 2).val < win0_2.index (pointOf (i 0)) (2 : Fin 3) * 65536 + 65536
              rw [e2]; omega

/-- The first output array after the run is the array of normalised coordinates. -/
theorem final_nc (V : (c : Dev nD) → (b : Ref sig .tc) → Buf (Elt Ideal) ((c : Thread nD τ).loc b)) (c : Dev nD) :
    (Cert.KernelIdeal.GenP.dat0 (F := Ideal) V c).arrAt 1 cfg0.N = ncArr (V c main_arg1) :=
  (Cert.KernelIdeal.GenP.dat0 (F := Ideal) V c).arrAt_eq_of_cover 1 (ncArr (V c main_arg1))
    (fun t _ => flushed_nc V c t) cover_nc

/-- The second output array after the run is the array of flat voxel indices. -/
theorem final_flat (V : (c : Dev nD) → (b : Ref sig .tc) → Buf (Elt Ideal) ((c : Thread nD τ).loc b)) (c : Dev nD) :
    (Cert.KernelIdeal.GenP.dat0 (F := Ideal) V c).arrAt 2 cfg0.N = flatArr (V c main_arg1) :=
  (Cert.KernelIdeal.GenP.dat0 (F := Ideal) V c).arrAt_eq_of_cover 2 (flatArr (V c main_arg1))
    (fun t _ => flushed_flat V c t) cover_flat

/-- The normalised-coordinate array after the first region. -/
theorem value_nc (V : (c : Dev nD) → (b : Ref sig .tc) → Buf (Elt Ideal) ((c : Thread nD τ).loc b)) (c : Dev nD)
    (b : Fin 16) (k : Fin 3) (n : Fin 65536) :
    (Cert.KernelIdeal.GenP.dat0 (F := Ideal) V c).arrAt 1 cfg0.N (ix3 b k n) = Cert.Vox.nc (V c main_arg1) b k n :=
  congrFun (final_nc V c) (ix3 b k n)

/-- The flat-voxel-index array after the first region. -/
theorem value_flat (V : (c : Dev nD) → (b : Ref sig .tc) → Buf (Elt Ideal) ((c : Thread nD τ).loc b)) (c : Dev nD)
    (b : Fin 16) (n : Fin 65536) :
    (Cert.KernelIdeal.GenP.dat0 (F := Ideal) V c).arrAt 2 cfg0.N (ix3 b (0 : Fin 1) n) = Cert.Vox.flat (V c main_arg1) b n :=
  congrFun (final_flat V c) (ix3 b (0 : Fin 1) n)

end Cert.KernelIdeal.Region0

end
-- ==== Proof.Region1Value.lean ====
/-
  The second kernel's output array after its run: at (cloud b, channel ch, voxel v) it holds the row of the
  scattered sums for segment `b·32768 + v`, channel `ch`, divided by the larger of that row's count and one.
-/
import proofs.«146283_j15436112462068_2_alg».proof.Proof.FrameKernelIdeal
import proofs.«146283_j15436112462068_2_alg».proof.Proof.Spec
import Idealize.ShloMosaic.Lib.ValueIdx
import Idealize.ShloMosaic.Lib.Pipeline.Value
import Idealize.ShloMosaic.Lib.ValueLayout

noncomputable section

namespace Cert.KernelIdeal.Region1

open Idealize.ShloMosaic Idealize.ShloMosaic.TcCoe Idealize.ShloMosaic.ValueIdx Idealize.SL.Sem Cert.KernelIdeal Cert.KernelIdeal.Gen

theorem ch_lt (ch : Fin 64) : ch.val < 65 := by have := ch.isLt; omega

/-- The body's arithmetic at one output index: channel `ch` of row `r` of the block, divided by the larger of the
    row's last column and one. -/
theorem pay_apply (x0 : Vec Ideal S8192x65 .f32) (ch : Fin 64) (r : Fin 8192) :
    k1_pay1 (F := Ideal) x0 (ix3 (0 : Fin 1) ch r)
      = Ideal.div (x0 (ix2 r (⟨ch.val, ch_lt ch⟩ : Fin 65)))
          (max (x0 (ix2 r (⟨64, by decide⟩ : Fin 65))) (Ideal.ofBits .f32 0x3F800000#32)) := by
  unfold k1_pay1
  refine (shapeCast_ab_1ab_apply _ _ (0 : Fin 1) ch r).trans ?_
  refine (transpose_ix2_apply _ _ ch r).trans ?_
  refine (divf_apply _ _ (ix2 r ch)).trans ?_
  congr 1
  · refine (extractStridedSlice_apply _ _ _ (ix2 r ch) (ix2 r (⟨ch.val, ch_lt ch⟩ : Fin 65)) ?_).trans ?_
    · intro a
      match a with
      | ⟨0, _⟩ => show r.val = 0 + r.val; omega
      | ⟨1, _⟩ => show ch.val = 0 + ch.val; omega
    · rw [shapeCast_self]
  · refine (broadcastTo_apply _ _ (ix2 r ch) (ix2 r (0 : Fin 1)) ?_).trans ?_
    · intro a
      match a with
      | ⟨0, _⟩ => rfl
      | ⟨1, _⟩ => rfl
    refine (maximumf_apply _ _ (ix2 r (0 : Fin 1))).trans ?_
    congr 1
    refine (extractStridedSlice_apply _ _ _ (ix2 r (0 : Fin 1)) (ix2 r (⟨64, by decide⟩ : Fin 65)) ?_).trans ?_
    · intro a
      match a with
      | ⟨0, _⟩ => show r.val = 0 + r.val; omega
      | ⟨1, _⟩ => show 64 = 64 + 0; rfl
    · rw [shapeCast_self]

/-! ## The whole output array as one function of the input array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The averaged cell: row `b·32768 + v` of the sums, channel `ch`, over the larger of the row's count and one. -/
def cellAt (A : S524288x65.Idx → EReal) (b : Fin 16) (ch : Fin 64) (v : Fin 32768) : EReal :=
  Ideal.div (A (ix2 (Cert.Vox.segOf b v) (⟨ch.val, ch_lt ch⟩ : Fin 65)))
    (max (A (ix2 (Cert.Vox.segOf b v) (⟨64, by decide⟩ : Fin 65))) (Ideal.ofBits .f32 0x3F800000#32))

/-- The output array, index by index. -/
def G (A : S524288x65.Idx → EReal) : S16x64x32768.Idx → EReal := fun i => cellAt A (i 0) (i 1) (i 2)

/-- The payload at any index of the block. -/
theorem pay_at (x0 : Vec Ideal S8192x65 .f32) (j : S1x64x8192.Idx) :
    k1_pay1 (F := Ideal) x0 j
      = Ideal.div (x0 (ix2 (j 2) (⟨(j 1).val, ch_lt (j 1)⟩ : Fin 65)))
          (max (x0 (ix2 (j 2) (⟨64, by decide⟩ : Fin 65))) (Ideal.ofBits .f32 0x3F800000#32)) := by
  obtain ⟨u, ch, r, rfl⟩ : ∃ (u : Fin 1) (ch : Fin 64) (r : Fin 8192), j = ix3 u ch r := ⟨j 0, j 1, j 2, eq_ix3 j⟩
  obtain rfl : u = 0 := Fin.ext (by omega)
  exact pay_apply x0 ch r

/-- The printed index maps, decided over the grid: the input block's row index is four times the output block's
    cloud index plus its voxel-block index; the other block indices are zero. -/
theorem idx_facts : ∀ t : Fin cfg1.N,
      win1_0.index t (0 : Fin 2) = win1_1.index t (0 : Fin 3) * 4 + win1_1.index t (2 : Fin 3)
    ∧ win1_0.index t (1 : Fin 2) = 0
    ∧ win1_1.index t (1 : Fin 3) = 0
    ∧ win1_1.index t (0 : Fin 3) ≤ 15
    ∧ win1_1.index t (2 : Fin 3) ≤ 3 :=
  (by decide +kernel : ∀ t : Fin grid1.N, _)

/-- Every (cloud, voxel block) pair is some point's output block. -/
theorem idx_onto : ∀ (q0 : Fin 16) (q2 : Fin 4), ∃ t : Fin cfg1.N, win1_1.index t = ![q0.val, 0, q2.val] :=
  (by decide +kernel : ∀ (q0 : Fin 16) (q2 : Fin 4), ∃ t : Fin grid1.N, win1_1.index t = ![q0.val, 0, q2.val])

/-- WHAT POINT `t` WRITES BACK is block `t` of `G` of the input array as the region finds it. -/
theorem flushed_eq (V : (c : Dev nD) → (b : Ref sig .tc) → Buf (Elt Ideal) ((c : Thread nD τ).loc b)) (c : Dev nD)
    (t : Fin cfg1.N) :
    (Cert.KernelIdeal.GenP.dat1 (F := Ideal) V c).flushed 1 t
      = ((cfg1.win 1).blk t).view.read (Elt Ideal) (G (V c main_v8)) := by
  show (cfg1.win 1).cut (grid1.coords t) ((Cert.KernelIdeal.GenP.dat1 (F := Ideal) V c).after 1 t) = _
  rw [Cert.KernelIdeal.GenP.after1_1]
  unfold Cert.KernelIdeal.GenP.out1_1
  rw [View.canon_unit_zero hz3]
  simp only [View.ld_unit_zero (S := S8192x65) hz2]
  obtain ⟨e0, e1, e2, e3, e4⟩ := idx_facts t
  funext j
  show k1_pay1 (F := Ideal) (Cert.KernelIdeal.GenP.iblk1 V c 0 t) j = G (V c main_v8) (((cfg1.win 1).blk t).view.emb j)
  refine (pay_at _ j).trans ?_
  have hj0 : (j 0).val < 1 := (j 0).isLt
  have hj1 : (j 1).val < 64 := (j 1).isLt
  have hj2 : (j 2).val < 8192 := (j 2).isLt
  show Ideal.div (V c main_v8 (((cfg1.win 0).blk t).view.emb (ix2 (j 2) (⟨(j 1).val, ch_lt (j 1)⟩ : Fin 65))))
        (max (V c main_v8 (((cfg1.win 0).blk t).view.emb (ix2 (j 2) (⟨64, by decide⟩ : Fin 65)))) (Ideal.ofBits .f32 0x3F800000#32))
      = cellAt (V c main_v8) ((((cfg1.win 1).blk t).view.emb j) 0) ((((cfg1.win 1).blk t).view.emb j) 1) ((((cfg1.win 1).blk t).view.emb j) 2)
  unfold cellAt
  have h0 : ((cfg1.win 0).blk t).view.emb (ix2 (j 2) (⟨(j 1).val, ch_lt (j 1)⟩ : Fin 65))
      = ix2 (Cert.Vox.segOf ((((cfg1.win 1).blk t).view.emb j) 0) ((((cfg1.win 1).blk t).view.emb j) 2))
          (⟨((((cfg1.win 1).blk t).view.emb j) 1).val, ch_lt _⟩ : Fin 65) := by
    funext a; apply Fin.ext
    match a with
    | ⟨0, _⟩ =>
      show win1_0.index t (0 : Fin 2) * 8192 + 1 * (j 2).val
        = (win1_1.index t (0 : Fin 3) * 1 + 1 * (j 0).val) * 32768 + (win1_1.index t (2 : Fin 3) * 8192 + 1 * (j 2).val)
      omega
    | ⟨1, _⟩ =>
      show win1_0.index t (1 : Fin 2) * 65 + 1 * (j 1).val = win1_1.index t (1 : Fin 3) * 64 + 1 * (j 1).val
      omega
  have h1 : ((cfg1.win 0).blk t).view.emb (ix2 (j 2) (⟨64, by decide⟩ : Fin 65))
      = ix2 (Cert.Vox.segOf ((((cfg1.win 1).blk t).view.emb j) 0) ((((cfg1.win 1).blk t).view.emb j) 2))
          (⟨64, by decide⟩ : Fin 65) := by
    funext a; apply Fin.ext
    match a with
    | ⟨0, _⟩ =>
      show win1_0.index t (0 : Fin 2) * 8192 + 1 * (j 2).val
        = (win1_1.index t (0 : Fin 3) * 1 + 1 * (j 0).val) * 32768 + (win1_1.index t (2 : Fin 3) * 8192 + 1 * (j 2).val)
      omega
    | ⟨1, _⟩ =>
      show win1_0.index t (1 : Fin 2) * 65 + 1 * 64 = 64
      omega
  rw [h0, h1]

/-- An index of the array is in point `t`'s block iff each coordinate is in the block's range on its axis. -/
theorem mem_blk (t : Fin cfg1.N) (i : S16x64x32768.Idx) :
    i ∈ ((cfg1.win 1).blk t).view.set
      ↔ ∀ a : Fin 3, win1_1.index t a * S1x64x8192.size a ≤ (i a).val
          ∧ (i a).val < win1_1.index t a * S1x64x8192.size a + S1x64x8192.size a := by
  show i ∈ ((View.whole main_v9).slice (win1_1.rect t)).set ↔ _
  rw [View.set_slice_whole, Rect.mem_set_unit]
  exact Iff.rfl

/-- Every index of the array is in some point's block: cloud `b`, voxel `v` is in the block of cloud `b`,
    voxel block `v / 8192`. -/
theorem cover (i : S16x64x32768.Idx) :
    ∃ t : Fin cfg1.N, (cfg1.win 1).flush t = true ∧ i ∈ ((cfg1.win 1).blk t).view.set := by
  have hi0 : (i 0).val < 16 := (i 0).isLt
  have hi1 : (i 1).val < 64 := (i 1).isLt
  have hi2 : (i 2).val < 32768 := (i 2).isLt
  obtain ⟨t, ht⟩ := idx_onto ⟨(i 0).val, hi0⟩ ⟨(i 2).val / 8192, by omega⟩
  have q0 : win1_1.index t (0 : Fin 3) = (i 0).val := congrFun ht 0
  have q1 : win1_1.index t (1 : Fin 3) = 0 := congrFun ht 1
  have q2 : win1_1.index t (2 : Fin 3) = (i 2).val / 8192 := congrFun ht 2
  refine ⟨t, flush1_1 t, ?_⟩
  rw [mem_blk]
  intro a
  match a with
  | ⟨0, _⟩ =>
    show win1_1.index t (0 : Fin 3) * 1 ≤ (i 0).val ∧ (i 0).val < win1_1.index t (0 : Fin 3) * 1 + 1
    omega
  | ⟨1, _⟩ =>
    show win1_1.index t (1 : Fin 3) * 64 ≤ (i 1).val ∧ (i 1).val < win1_1.index t (1 : Fin 3) * 64 + 64
    omega
  | ⟨2, _⟩ =>
    show win1_1.index t (2 : Fin 3) * 8192 ≤ (i 2).val ∧ (i 2).val < win1_1.index t (2 : Fin 3) * 8192 + 8192
    omega

/-- The second region's output array, whatever contents `V` the region is entered with. -/
theorem value (V : (c : Dev nD) → (b : Ref sig .tc) → Buf (Elt Ideal) ((c : Thread nD τ).loc b)) (c : Dev nD)
    (b : Fin 16) (ch : Fin 64) (v : Fin 32768) :
    (Cert.KernelIdeal.GenP.dat1 (F := Ideal) V c).arrAt 1 cfg1.N (ix3 b ch v)
      = Ideal.div (V c main_v8 (ix2 (Cert.Vox.segOf b v) (⟨ch.val, ch_lt ch⟩ : Fin 65)))
          (max (V c main_v8 (ix2 (Cert.Vox.segOf b v) (⟨64, by decide⟩ : Fin 65))) (Ideal.ofBits .f32 0x3F800000#32)) :=
  congrFun ((Cert.KernelIdeal.GenP.dat1 (F := Ideal) V c).arrAt_eq_of_cover 1 (G (V c main_v8))
    (fun t _ => flushed_eq V c t) cover) (ix3 b ch v)

end Cert.KernelIdeal.Region1

end
-- ==== Proof.LibScatterRows.lean ====
/-
  The host's accumulating float scatter (`.at[idx].add`, a segment sum) read at one element, at the ideal instance:
  rows of a matrix scattered by row number, and a vector scattered by element number.

  The dimension numbers are the ones such a scatter is written with: the scatter indices are an `[N, 1]` array whose
  second axis holds the one-component index vector, that component names the operand's axis 0, which is an inserted
  window axis; the update's remaining axis (the columns, for rows) is the window axis. Update element `(p, c)` then
  lands at operand element `(idx[p, 0], c)` (the index read signed, NOT clamped), or nowhere when `idx[p, 0]` is
  outside `[0, R)`; so element `(r, k)` of the result collects exactly the update elements `(p, k)` with
  `idx[p, 0] = r`.
-/
import Idealize.ShloMosaic.PureOps.Ideal
import Idealize.ShloMosaic.Lib.ValueIdx

noncomputable section

namespace Cert.LibScatterRows

open Idealize.ShloMosaic Idealize.ShloMosaic.ValueIdx
open scoped BigOperators

section Rows
variable {R N K : Nat}

/-- The dimension numbers of a scatter of rows by row number. -/
abbrev rowsDims (wf : ScatterDims.WF (⟨2, ![R, K]⟩ : Shape) (⟨2, ![N, 1]⟩ : Shape) (⟨2, ![N, K]⟩ : Shape) [1] [0] [0] 1) :
    ScatterDims (⟨2, ![R, K]⟩ : Shape) (⟨2, ![N, 1]⟩ : Shape) (⟨2, ![N, K]⟩ : Shape) where
  updateWindowDims := [1]
  insertedWindowDims := [0]
  scatterDimsToOperandDims := [0]
  indexVectorDim := 1
  wf := wf

set_option maxHeartbeats 400000 in
/-- The start of update element `(p, c)`'s window on the operand's row axis is the `p`-th scatter index, read signed. -/
theorem rows_start_zero (wf) {w : Nat} (idx : IVec (⟨2, ![N, 1]⟩ : Shape) w) (p : Fin N) (c : Fin K) :
    (rowsDims (R := R) wf).start (ix2 p c) idx 0 = (idx (ix2 p (0 : Fin 1))).toInt := by
  unfold ScatterDims.start
  rw [dif_pos (show (0 : Fin 2) ∈ (rowsDims (R := R) (N := N) (K := K) wf).scatterDimsToOperandDims from List.mem_singleton.mpr rfl)]
  congr 2
  funext b
  refine Fin.ext ?_
  match b with
  | ⟨0, _⟩ => rfl
  | ⟨1, _⟩ => rfl

set_option maxHeartbeats 400000 in
/-- The scatter indices do not name the operand's column axis: the window starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold ScatterDims.start
  rw [dif_neg (show (1 : Fin 2) ∉ [(0 : Fin 2)] from by decide)]

set_option maxHeartbeats 400000 in
/-- The operand's row axis is an inserted window axis: the window coordinate on it is `0`. -/
theorem rows_window_zero (wf) (j : (⟨2, ![N, K]⟩ : Shape).Idx) :
    (rowsDims (R := R) wf).window j 0 = 0 := by
  unfold ScatterDims.window
  exact dif_neg (show (0 : Fin 2) ∉ (List.finRange 2).filter (fun a => a ∉ [(0 : Fin 2)]) from by decide)

set_option maxHeartbeats 400000 in
/-- The window coordinate on the operand's column axis is the update element's column. -/
theorem rows_window_one (wf) (j : (⟨2, ![N, K]⟩ : Shape).Idx) :
    (rowsDims (R := R) wf).window j 1 = (j 1).val := by
  unfold ScatterDims.window
  exact (dif_pos (show (1 : Fin 2) ∈ (List.finRange 2).filter (fun a => a ∉ [(0 : Fin 2)]) from by decide)).trans rfl

set_option maxHeartbeats 400000 in
/-- The landing place of update element `(p, c)` is operand element `(r, k)` exactly when the `p`-th scatter index,
    read signed, is `r` and the column is the same (`c = k`); an index outside `[0, R)` lands nowhere. -/
theorem rows_resultIdx?_eq_some_iff
    (wf : ScatterDims.WF (⟨2, ![R, K]⟩ : Shape) (⟨2, ![N, 1]⟩ : Shape) (⟨2, ![N, K]⟩ : Shape) [1] [0] [0] 1)
    {w : Nat} (idx : IVec (⟨2, ![N, 1]⟩ : Shape) w) (p : Fin N) (c : Fin K) (r : Fin R) (k : Fin K) :
    (rowsDims (R := R) wf).resultIdx? (ix2 p c) idx = some (ix2 r k)
      ↔ (idx (ix2 p (0 : Fin 1))).toInt = (r.val : Int) ∧ c = k := by
  have h0 : (rowsDims (R := R) wf).start (ix2 p c) idx 0 + ((rowsDims (R := R) wf).window (ix2 p c) 0 : Int)
      = (idx (ix2 p (0 : Fin 1))).toInt := by
    rw [rows_start_zero, rows_window_zero]; exact Int.add_zero _
  have h1 : (rowsDims (R := R) wf).start (ix2 p c) idx 1 + ((rowsDims (R := R) wf).window (ix2 p c) 1 : Int)
      = (c.val : Int) := by
    rw [rows_start_one, rows_window_one]; exact Int.zero_add _
  unfold ScatterDims.resultIdx?
  split
  · rename_i h
    rw [Option.some.injEq]
    constructor
    · intro e
      have e0 : ((rowsDims (R := R) wf).start (ix2 p c) idx 0
          + ((rowsDims (R := R) wf).window (ix2 p c) 0 : Int)).toNat = r.val :=
        congrArg (fun f : (⟨2, ![R, K]⟩ : Shape).Idx => (f 0).val) e
      have e1 : ((rowsDims (R := R) wf).start (ix2 p c) idx 1
          + ((rowsDims (R := R) wf).window (ix2 p c) 1 : Int)).toNat = k.val :=
        congrArg (fun f : (⟨2, ![R, K]⟩ : Shape).Idx => (f 1).val) e
      have g0 := (h 0).1
      rw [h0] at e0 g0
      rw [h1] at e1
      exact ⟨by omega, Fin.ext (by omega)⟩
    · rintro ⟨ht, hc⟩
      funext a
      refine Fin.ext ?_
      match a with
      | ⟨0, _⟩ =>
        show ((rowsDims (R := R) wf).start (ix2 p c) idx 0
          + ((rowsDims (R := R) wf).window (ix2 p c) 0 : Int)).toNat = r.val
        rw [h0, ht]; exact Int.toNat_natCast _
      | ⟨1, _⟩ =>
        show ((rowsDims (R := R) wf).start (ix2 p c) idx 1
          + ((rowsDims (R := R) wf).window (ix2 p c) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (rowsDims (R := R) wf).start (ix2 p c) idx 0 + ((rowsDims (R := R) wf).window (ix2 p c) 0 : Int)
          ∧ (rowsDims (R := R) wf).start (ix2 p c) idx 0 + ((rowsDims (R := R) wf).window (ix2 p c) 0 : Int) < (R : Int)
        rw [h0, ht]; have := r.isLt; omega
      | ⟨1, _⟩ =>
        show 0 ≤ (rowsDims (R := R) wf).start (ix2 p c) idx 1 + ((rowsDims (R := R) wf).window (ix2 p c) 1 : Int)
          ∧ (rowsDims (R := R) wf).start (ix2 p c) idx 1 + ((rowsDims (R := R) wf).window (ix2 p c) 1 : Int) < (K : Int)
        rw [h1]; have := c.isLt; omega

set_option maxHeartbeats 400000 in
/-- Rows scattered by row number, read at one element, for the literal dimension numbers: element `(r, k)` of the
    result is the operand's element plus the sum, over the update rows `p` whose scatter index is `r`, of the update's
    element `(p, k)`. -/
theorem hostScatterAdd_rowsDims_apply
    (wf : ScatterDims.WF (⟨2, ![R, K]⟩ : Shape) (⟨2, ![N, 1]⟩ : Shape) (⟨2, ![N, K]⟩ : Shape) [1] [0] [0] 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd (rowsDims wf) x idx upd (ix2 r k)
      = x (ix2 r k) + ∑ p ∈ Finset.univ.filter (fun p : Fin N => (idx (ix2 p (0 : Fin 1))).toInt = (r.val : Int)),
          upd (ix2 p k) := by
  unfold Ideal.hostScatterAdd
  congr 1
  symm
  refine Finset.sum_bij (fun p _ => ix2 p k) ?_ ?_ ?_ ?_
  · intro p hp
    rw [Finset.mem_filter] at hp ⊢
    exact ⟨Finset.mem_univ _, (rows_resultIdx?_eq_some_iff wf idx p k r k).mpr ⟨hp.2, rfl⟩⟩
  · intro p _ q _ e
    exact congrArg (fun f : (⟨2, ![N, K]⟩ : Shape).Idx => f 0) e
  · intro j hj
    rw [Finset.mem_filter] at hj
    obtain ⟨p, c, rfl⟩ : ∃ p c, j = ix2 p c := ⟨j 0, j 1, eq_ix2 j⟩
    have hpc := (rows_resultIdx?_eq_some_iff wf idx p c r k).mp hj.2
    refine ⟨p, Finset.mem_filter.mpr ⟨Finset.mem_univ _, hpc.1⟩, ?_⟩
    rw [hpc.2]
  · intro p _; rfl

/-- Rows of width `K` scattered by row number (`x.at[idx].add(upd)` over rows), read at one element: element
    `(r, k)` of the result is `x (r, k)` plus the sum of `upd (p, k)` over the update rows `p` whose scatter index, read
    signed, is `r`. Update rows whose index is outside `[0, R)` contribute nothing. -/
theorem hostScatterAdd_rows_apply
    (d : ScatterDims (⟨2, ![R, K]⟩ : Shape) (⟨2, ![N, 1]⟩ : Shape) (⟨2, ![N, K]⟩ : Shape))
    (huw : d.updateWindowDims = [1]) (hiw : d.insertedWindowDims = [0]) (hsd : d.scatterDimsToOperandDims = [0])
    (hiv : d.indexVectorDim = 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd d x idx upd (ix2 r k)
      = x (ix2 r k) + ∑ p ∈ Finset.univ.filter (fun p : Fin N => (idx (ix2 p (0 : Fin 1))).toInt = (r.val : Int)),
          upd (ix2 p k) := by
  obtain ⟨uw, iw, sd, iv, wf⟩ := d
  dsimp only at huw hiw hsd hiv
  subst huw hiw hsd hiv
  exact hostScatterAdd_rowsDims_apply wf x idx upd r k

end Rows

section Vec
variable {R N : Nat}

/-- The dimension numbers of a scatter of a vector's elements by element number. -/
abbrev vecDims (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

set_option maxHeartbeats 400000 in
/-- The start of update element `p`'s window on the operand's one axis is the `p`-th scatter index, read signed. -/
theorem vec_start_zero (wf) {w : Nat} (idx : IVec (⟨2, ![N, 1]⟩ : Shape) w) (p : Fin N) :
    (vecDims (R := R) wf).start (ix1 p) idx 0 = (idx (ix2 p (0 : Fin 1))).toInt := by
  unfold ScatterDims.start
  rw [dif_pos (show (0 : Fin 1) ∈ (vecDims (R := R) (N := N) wf).scatterDimsToOperandDims from List.mem_singleton.mpr rfl)]
  congr 2
  funext b
  refine Fin.ext ?_
  match b with
  | ⟨0, _⟩ => rfl
  | ⟨1, _⟩ => rfl

set_option maxHeartbeats 400000 in
/-- The operand's one axis is an inserted window axis: the window coordinate on it is `0`. -/
theorem vec_window_zero (wf) (j : (⟨1, ![N]⟩ : Shape).Idx) :
    (vecDims (R := R) wf).window j 0 = 0 := by
  unfold ScatterDims.window
  exact dif_neg (show (0 : Fin 1) ∉ (List.finRange 1).filter (fun a => a ∉ [(0 : Fin 1)]) from by decide)

set_option maxHeartbeats 400000 in
/-- The landing place of update element `p` is operand element `r` exactly when the `p`-th scatter index, read
    signed, is `r`; an index outside `[0, R)` lands nowhere. -/
theorem vec_resultIdx?_eq_some_iff
    (wf : ScatterDims.WF (⟨1, ![R]⟩ : Shape) (⟨2, ![N, 1]⟩ : Shape) (⟨1, ![N]⟩ : Shape) [] [0] [0] 1)
    {w : Nat} (idx : IVec (⟨2, ![N, 1]⟩ : Shape) w) (p : Fin N) (r : Fin R) :
    (vecDims (R := R) wf).resultIdx? (ix1 p) idx = some (ix1 r)
      ↔ (idx (ix2 p (0 : Fin 1))).toInt = (r.val : Int) := by
  have h0 : (vecDims (R := R) wf).start (ix1 p) idx 0 + ((vecDims (R := R) wf).window (ix1 p) 0 : Int)
      = (idx (ix2 p (0 : Fin 1))).toInt := by
    rw [vec_start_zero, vec_window_zero]; exact Int.add_zero _
  unfold ScatterDims.resultIdx?
  split
  · rename_i h
    rw [Option.some.injEq]
    constructor
    · intro e
      have e0 : ((vecDims (R := R) wf).start (ix1 p) idx 0
          + ((vecDims (R := R) wf).window (ix1 p) 0 : Int)).toNat = r.val :=
        congrArg (fun f : (⟨1, ![R]⟩ : Shape).Idx => (f 0).val) e
      have g0 := (h 0).1
      rw [h0] at e0 g0
      omega
    · intro ht
      funext a
      refine Fin.ext ?_
      match a with
      | ⟨0, _⟩ =>
        show ((vecDims (R := R) wf).start (ix1 p) idx 0
          + ((vecDims (R := R) wf).window (ix1 p) 0 : Int)).toNat = r.val
        rw [h0, ht]; exact Int.toNat_natCast _
  · rename_i h
    constructor
    · intro e; cases e
    · intro ht
      exfalso; apply h
      intro a
      match a with
      | ⟨0, _⟩ =>
        show 0 ≤ (vecDims (R := R) wf).start (ix1 p) idx 0 + ((vecDims (R := R) wf).window (ix1 p) 0 : Int)
          ∧ (vecDims (R := R) wf).start (ix1 p) idx 0 + ((vecDims (R := R) wf).window (ix1 p) 0 : Int) < (R : Int)
        rw [h0, ht]; have := r.isLt; omega

set_option maxHeartbeats 400000 in
/-- A vector scattered by element number, read at one element, for the literal dimension numbers: element `r` of the
    result is the operand's element plus the sum of the update elements `p` whose scatter index is `r`. -/
theorem hostScatterAdd_vecDims_apply
    (wf : ScatterDims.WF (⟨1, ![R]⟩ : Shape) (⟨2, ![N, 1]⟩ : Shape) (⟨1, ![N]⟩ : Shape) [] [0] [0] 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (vecDims wf) x idx upd (ix1 r)
      = x (ix1 r) + ∑ p ∈ Finset.univ.filter (fun p : Fin N => (idx (ix2 p (0 : Fin 1))).toInt = (r.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (vec_resultIdx?_eq_some_iff wf idx p r).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (vec_resultIdx?_eq_some_iff wf idx p r).mp hj.2⟩, rfl⟩
  · intro p _; rfl

/-- A vector scattered by element number (`x.at[idx].add(upd)`, a segment sum), read at one element: element `r` of
    the result is `x r` plus the sum of `upd p` over the update elements `p` whose scatter index, read signed, is `r`.
    Update elements whose index is outside `[0, R)` contribute nothing. -/
theorem hostScatterAdd_vec_apply
    (d : ScatterDims (⟨1, ![R]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd d x idx upd (ix1 r)
      = x (ix1 r) + ∑ p ∈ Finset.univ.filter (fun p : Fin N => (idx (ix2 p (0 : Fin 1))).toInt = (r.val : Int)),
          upd (ix1 p) := by
  obtain ⟨uw, iw, sd, iv, wf⟩ := d
  dsimp only at huw hiw hsd hiv
  subst huw hiw hsd hiv
  exact hostScatterAdd_vecDims_apply wf x idx upd r

end Vec

end Cert.LibScatterRows

end
-- ==== Proof.KernelValue.lean ====
/-
  The idealized kernel's two results as functions of the argument arrays, index by index: the contents of the
  normalised-coordinate buffer and of the grid buffer at the last segment boundary are `Vox.nc` and `Vox.grid`.
-/
import proofs.«146283_j15436112462068_2_alg».proof.Proof.FrameKernelIdeal
import proofs.«146283_j15436112462068_2_alg».proof.Proof.Spec
import proofs.«146283_j15436112462068_2_alg».proof.Proof.Region0Value
import proofs.«146283_j15436112462068_2_alg».proof.Proof.Region1Value
import proofs.«146283_j15436112462068_2_alg».proof.Proof.LibScatterRows
import Idealize.ShloMosaic.Lib.ValueIdx
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The second result: the normalised coordinates -/

/-- No host operation and not the second region writes the normalised-coordinate buffer after the first region
    leaves it: at the end it holds what the first region's write-backs made of it. -/
theorem W4_nc (c : Dev nD) : W4 m ρ c (Proc.devRef .tc main_v0_0) = (dat0 (V0 m ρ) c).arrAt 1 cfg0.N :=
  calc W4 m ρ c (Proc.devRef .tc main_v0_0)
    _ = W3 m ρ c (Proc.devRef .tc main_v0_0) := StableHlo.after_of_forall_not_mem (b := Proc.devRef .tc main_v0_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0_0) := W3_of_ne m ρ c main_v0_0 (by decide)
    _ = W1 m ρ c (Proc.devRef .tc main_v0_0) := StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 1 cfg0.N := W1_arr m ρ c 1

/-- The normalised-coordinate result, index by index. -/
theorem nc_value (c : Dev nD) (b : Fin 16) (k : Fin 3) (n : Fin 65536) :
    W4 m ρ c (Proc.devRef .tc main_v0_0) (ix3 b k n) = Cert.Vox.nc (m ((c.tc : Thread nD τ).loc main_arg1)) b k n := by
  rw [W4_nc]
  exact Cert.KernelIdeal.Region0.value_nc (V0 m ρ) c b k n

/-! ## The scattered sums the second region is entered with -/

/-- The flat-voxel-index buffer as the first region leaves it. -/
theorem W1_flat (c : Dev nD) : W1 m ρ c (Proc.devRef .tc main_v0_1) = (dat0 (V0 m ρ) c).arrAt 2 cfg0.N := W1_arr m ρ c 2

/-- The feature argument is untouched by the first region. -/
theorem W1_feat (c : Dev nD) : W1 m ρ c (Proc.devRef .tc main_arg0) = m ((c.tc : Thread nD τ).loc main_arg0) :=
  W1_of_ne m ρ c main_arg0 (by decide)

/-- The host operations between the regions, composed: the second region's input is the accumulating scatter, from
    zeros, of the rows `(features ++ ones)` transposed to point-major, by the flat voxel indices. -/
theorem W2_sums (c : Dev nD) :
    W2 m ρ c (Proc.devRef .tc main_v8)
      = Ideal.hostScatterAdd scatter_S524288x65_S1048576x1_S1048576x65_1_0_0_1
          (broadcastInDim S524288x65 ![] bcast_S_S524288x65 (constant (F := Ideal) S_ .f32 0x00000000#32))
          (broadcastInDim S1048576x1 ![0] bcast_S1048576_S1048576x1_0
            (shapeCast S1048576 (W1 m ρ c (Proc.devRef .tc main_v0_1)) shapeCasts_S16x1x65536_S1048576))
          (shapeCast S1048576x65
            (transpose S16x65536x65 [0, 2, 1]
              (concatenate S16x65x65536 1 [⟨S16x64x65536, W1 m ρ c (Proc.devRef .tc main_arg0)⟩,
                ⟨S16x1x65536, broadcastInDim S16x1x65536 ![] bcast_S_S16x1x65536 (constant (F := Ideal) S_ .f32 0x3F800000#32)⟩]
                concatenates_S16x64x65536_S16x1x65536_S16x65x65536_d1)
              transposes_S16x65x65536_S16x65536x65_0_2_1)
            shapeCasts_S16x65536x65_S1048576x65) := by
  show StableHlo.after hostOps1 (W1 m ρ c) (Proc.devRef .tc main_v8) = _
  after_results
  rfl

/-- The last host operation: the grid buffer is the second region's output array, re-laid. -/
theorem W4_grid (c : Dev nD) :
    W4 m ρ c (Proc.devRef .tc main_v10)
      = shapeCast S16x64x32x32x32 ((dat1 (V2 m ρ) c).arrAt 1 cfg1.N) shapeCasts_S16x64x32768_S16x64x32x32x32 := by
  show StableHlo.after hostOps2 (W3 m ρ c) (Proc.devRef .tc main_v10) = _
  after_results
  rw [W3_arr m ρ c 1]
  rfl

/-! ## Reading the scattered sums at one element -/

/-- The flat point number is the cloud number times 65536 plus the point number. -/
theorem pb_pn (p : Fin 1048576) : (Cert.Vox.pb p).val * 65536 + (Cert.Vox.pn p).val = p.val := by
  show p.val / 65536 * 65536 + p.val % 65536 = p.val
  omega

/-- The scatter's index operand at point `p` is that point's flat voxel index. -/
theorem idx_apply (c : Dev nD) (p : Fin 1048576) :
    broadcastInDim S1048576x1 ![0] bcast_S1048576_S1048576x1_0
        (shapeCast S1048576 (W1 m ρ c (Proc.devRef .tc main_v0_1)) shapeCasts_S16x1x65536_S1048576) (ix2 p (0 : Fin 1))
      = Cert.Vox.pidx (m ((c.tc : Thread nD τ).loc main_arg1)) p := by
  refine (broadcastInDim_apply _ bcast_S1048576_S1048576x1_0 _ (ix2 p (0 : Fin 1)) (ix1 p) (fun a => match a with
    | ⟨0, _⟩ => by show p.val = if (1048576 : Nat) = 1 then 0 else p.val; rw [if_neg (by decide)])).trans ?_
  refine (shapeCast_apply _ shapeCasts_S16x1x65536_S1048576 (ix1 p) (ix3 (Cert.Vox.pb p) (0 : Fin 1) (Cert.Vox.pn p))
    (by rewrite [Shape.rowMajor_val_three, Shape.rowMajor_val_one]
        show ((Cert.Vox.pb p).val * 1 + 0) * 65536 + (Cert.Vox.pn p).val = p.val
        simp only [Nat.mul_one, Nat.add_zero]
        exact pb_pn p)).trans ?_
  rw [W1_flat]
  exact Cert.KernelIdeal.Region0.value_flat (V0 m ρ) c (Cert.Vox.pb p) (Cert.Vox.pn p)

/-- The scatter's update operand at point `p`, column `col`: the feature of that channel for the first 64 columns,
    one for the last. -/
theorem upd_apply_feat (c : Dev nD) (p : Fin 1048576) (ch : Fin 64) :
    shapeCast S1048576x65
        (transpose S16x65536x65 [0, 2, 1]
          (concatenate S16x65x65536 1 [⟨S16x64x65536, W1 m ρ c (Proc.devRef .tc main_arg0)⟩,
            ⟨S16x1x65536, broadcastInDim S16x1x65536 ![] bcast_S_S16x1x65536 (constant (F := Ideal) S_ .f32 0x3F800000#32)⟩]
            concatenates_S16x64x65536_S16x1x65536_S16x65x65536_d1)
          transposes_S16x65x65536_S16x65536x65_0_2_1)
        shapeCasts_S16x65536x65_S1048576x65 (ix2 p (⟨ch.val, Cert.KernelIdeal.Region1.ch_lt ch⟩ : Fin 65))
      = m ((c.tc : Thread nD τ).loc main_arg0) (ix3 (Cert.Vox.pb p) ch (Cert.Vox.pn p)) := by
  refine (shapeCast_apply _ shapeCasts_S16x65536x65_S1048576x65 (ix2 p (⟨ch.val, Cert.KernelIdeal.Region1.ch_lt ch⟩ : Fin 65))
    (ix3 (Cert.Vox.pb p) (Cert.Vox.pn p) (⟨ch.val, Cert.KernelIdeal.Region1.ch_lt ch⟩ : Fin 65))
    (by rewrite [Shape.rowMajor_val_three, Shape.rowMajor_val_two]
        show ((Cert.Vox.pb p).val * 65536 + (Cert.Vox.pn p).val) * 65 + ch.val = p.val * 65 + ch.val
        rw [pb_pn p])).trans ?_
  refine (transpose_apply [0, 2, 1] _ transposes_S16x65x65536_S16x65536x65_0_2_1
    (ix3 (Cert.Vox.pb p) (Cert.Vox.pn p) (⟨ch.val, Cert.KernelIdeal.Region1.ch_lt ch⟩ : Fin 65))
    (ix3 (Cert.Vox.pb p) (⟨ch.val, Cert.KernelIdeal.Region1.ch_lt ch⟩ : Fin 65) (Cert.Vox.pn p)) (fun b => match b with
      | ⟨0, _⟩ => rfl
      | ⟨1, _⟩ => rfl
      | ⟨2, _⟩ => rfl)).trans ?_
  refine (concatenate_pair_apply_left (t := S16x65x65536) (s₁ := S16x64x65536) (s₂ := S16x1x65536) (1 : Fin 3) _ _
    concatenates_S16x64x65536_S16x1x65536_S16x65x65536_d1 _ rfl (ix3 (Cert.Vox.pb p) ch (Cert.Vox.pn p)) (fun b => match b with
      | ⟨0, _⟩ => rfl
      | ⟨1, _⟩ => rfl
      | ⟨2, _⟩ => rfl)).trans ?_
  rw [W1_feat]

theorem upd_apply_one (c : Dev nD) (p : Fin 1048576) :
    shapeCast S1048576x65
        (transpose S16x65536x65 [0, 2, 1]
          (concatenate S16x65x65536 1 [⟨S16x64x65536, W1 m ρ c (Proc.devRef .tc main_arg0)⟩,
            ⟨S16x1x65536, broadcastInDim S16x1x65536 ![] bcast_S_S16x1x65536 (constant (F := Ideal) S_ .f32 0x3F800000#32)⟩]
            concatenates_S16x64x65536_S16x1x65536_S16x65x65536_d1)
          transposes_S16x65x65536_S16x65536x65_0_2_1)
        shapeCasts_S16x65536x65_S1048576x65 (ix2 p (⟨64, by decide⟩ : Fin 65))
      = Ideal.ofBits .f32 0x3F800000#32 := by
  refine (shapeCast_apply _ shapeCasts_S16x65536x65_S1048576x65 (ix2 p (⟨64, by decide⟩ : Fin 65))
    (ix3 (Cert.Vox.pb p) (Cert.Vox.pn p) (⟨64, by decide⟩ : Fin 65))
    (by rewrite [Shape.rowMajor_val_three, Shape.rowMajor_val_two]
        show ((Cert.Vox.pb p).val * 65536 + (Cert.Vox.pn p).val) * 65 + 64 = p.val * 65 + 64
        rw [pb_pn p])).trans ?_
  refine (transpose_apply [0, 2, 1] _ transposes_S16x65x65536_S16x65536x65_0_2_1
    (ix3 (Cert.Vox.pb p) (Cert.Vox.pn p) (⟨64, by decide⟩ : Fin 65))
    (ix3 (Cert.Vox.pb p) (⟨64, by decide⟩ : Fin 65) (Cert.Vox.pn p)) (fun b => match b with
      | ⟨0, _⟩ => rfl
      | ⟨1, _⟩ => rfl
      | ⟨2, _⟩ => rfl)).trans ?_
  exact concatenate_pair_apply_right (t := S16x65x65536) (s₁ := S16x64x65536) (s₂ := S16x1x65536) (1 : Fin 3) _ _
    concatenates_S16x64x65536_S16x1x65536_S16x65x65536_d1 _ rfl rfl (ix3 (Cert.Vox.pb p) (0 : Fin 1) (Cert.Vox.pn p))
    (fun b hb => match b, hb with
      | ⟨0, _⟩, _ => rfl
      | ⟨1, _⟩, hb => absurd rfl hb
      | ⟨2, _⟩, _ => rfl)
    rfl

/-- The scattered sums at segment `seg`, feature column `ch`: zero plus the sum of that channel over the segment's points. -/
theorem sums_feat (c : Dev nD) (seg : Fin 524288) (ch : Fin 64) :
    W2 m ρ c (Proc.devRef .tc main_v8) (ix2 seg (⟨ch.val, Cert.KernelIdeal.Region1.ch_lt ch⟩ : Fin 65))
      = Ideal.ofBits .f32 0x00000000#32
        + Cert.Vox.ssum (m ((c.tc : Thread nD τ).loc main_arg0)) (m ((c.tc : Thread nD τ).loc main_arg1)) seg ch := by
  refine (congrFun (W2_sums m ρ c) _).trans ?_
  refine (Cert.LibScatterRows.hostScatterAdd_rows_apply (R := 524288) (N := 1048576) (K := 65)
    scatter_S524288x65_S1048576x1_S1048576x65_1_0_0_1 rfl rfl rfl rfl _ _ _ seg (⟨ch.val, Cert.KernelIdeal.Region1.ch_lt ch⟩ : Fin 65)).trans ?_
  refine congrArg₂ (· + ·) rfl ?_
  unfold Cert.Vox.ssum Cert.Vox.hits
  refine Finset.sum_congr (Finset.filter_congr fun p _ => by rw [idx_apply]) fun p _ => ?_
  exact upd_apply_feat m ρ c p ch

/-- The scattered sums at segment `seg`, last column: zero plus the segment's count of points, as a sum of ones. -/
theorem sums_one (c : Dev nD) (seg : Fin 524288) :
    W2 m ρ c (Proc.devRef .tc main_v8) (ix2 seg (⟨64, by decide⟩ : Fin 65))
      = Ideal.ofBits .f32 0x00000000#32 + Cert.Vox.scnt (m ((c.tc : Thread nD τ).loc main_arg1)) seg := by
  refine (congrFun (W2_sums m ρ c) _).trans ?_
  refine (Cert.LibScatterRows.hostScatterAdd_rows_apply (R := 524288) (N := 1048576) (K := 65)
    scatter_S524288x65_S1048576x1_S1048576x65_1_0_0_1 rfl rfl rfl rfl _ _ _ seg (⟨64, by decide⟩ : Fin 65)).trans ?_
  refine congrArg₂ (· + ·) rfl ?_
  unfold Cert.Vox.scnt Cert.Vox.hits
  refine Finset.sum_congr (Finset.filter_congr fun p _ => by rw [idx_apply]) fun p _ => ?_
  exact upd_apply_one m ρ c p

/-! ## The first result: the grid -/

/-- The grid result, index by index. -/
theorem grid_value (c : Dev nD) (b : Fin 16) (ch : Fin 64) (x y z : Fin 32) :
    W4 m ρ c (Proc.devRef .tc main_v10) (ix5 b ch x y z)
      = Cert.Vox.grid (m ((c.tc : Thread nD τ).loc main_arg0)) (m ((c.tc : Thread nD τ).loc main_arg1)) b ch x y z := by
  rw [W4_grid]
  refine (shapeCast_apply _ shapeCasts_S16x64x32768_S16x64x32x32x32 (ix5 b ch x y z) (ix3 b ch (Cert.Vox.vxl x y z))
    (by rewrite [Shape.rowMajor_val_three, Shape.rowMajor_val_five]
        show (b.val * 64 + ch.val) * 32768 + (x.val * 1024 + y.val * 32 + z.val)
          = (((b.val * 64 + ch.val) * 32 + x.val) * 32 + y.val) * 32 + z.val
        generalize b.val * 64 + ch.val = a
        omega)).trans ?_
  refine (Cert.KernelIdeal.Region1.value (V2 m ρ) c b ch (Cert.Vox.vxl x y z)).trans ?_
  show Ideal.div (W2 m ρ c (Proc.devRef .tc main_v8) (ix2 (Cert.Vox.segOf b (Cert.Vox.vxl x y z)) (⟨ch.val, Cert.KernelIdeal.Region1.ch_lt ch⟩ : Fin 65)))
      (max (W2 m ρ c (Proc.devRef .tc main_v8) (ix2 (Cert.Vox.segOf b (Cert.Vox.vxl x y z)) (⟨64, by decide⟩ : Fin 65))) (Ideal.ofBits .f32 0x3F800000#32)) = _
  rw [sums_feat, sums_one]
  rfl

end Cert.KernelIdeal.KValue

end
-- ==== Proof.RefValue.lean ====
/-
  The reference's normalised coordinates and flat voxel indices, read index by index off its operations:
  they are `Vox.nc` and `Vox.pidx` of the coordinate array.
-/
import proofs.«146283_j15436112462068_2_alg».proof.Proof.Gen.ReferenceIdeal.Read
import proofs.«146283_j15436112462068_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read

/-! ## The composed index functions of the operations, at literal coordinates -/

theorem idx_v0 (b : Fin 16) (k : Fin 3) (n : Fin 65536) : idx_main_v0 (ix2 b k) n = ix3 b k n :=
  funext fun a => Fin.ext (by match a with | ⟨0, _⟩ => rfl | ⟨1, _⟩ => rfl | ⟨2, _⟩ => rfl)

theorem idx_v1 (b : Fin 16) (k : Fin 3) (z : Fin 1) : idx_main_v1 (ix3 b k z) = ix2 b k :=
  funext fun a => Fin.ext (by match a with | ⟨0, _⟩ => rfl | ⟨1, _⟩ => rfl)

theorem idx_v4 (b : Fin 16) (k : Fin 3) (n : Fin 65536) : idx_main_v4 (ix3 b k n) = ix3 b k (0 : Fin 1) :=
  funext fun a => Fin.ext (by match a with | ⟨0, _⟩ => rfl | ⟨1, _⟩ => rfl | ⟨2, _⟩ => rfl)

theorem idx_call0_v1 (b : Fin 16) (n : Fin 65536) (k : Fin 3) : idx_main_call0_v1 (ix2 b n) k = ix3 b k n :=
  funext fun a => Fin.ext (by match a with | ⟨0, _⟩ => rfl | ⟨1, _⟩ => rfl | ⟨2, _⟩ => rfl)

theorem idx_call0_v2 (b : Fin 16) (z : Fin 1) (n : Fin 65536) : idx_main_call0_v2 (ix3 b z n) = ix2 b n :=
  funext fun a => Fin.ext (by match a with | ⟨0, _⟩ => rfl | ⟨1, _⟩ => rfl)

theorem idx_v8 (b : Fin 16) (z z' : Fin 1) : idx_main_v8 (ix3 b z z') = ix2 b (0 : Fin 1) :=
  funext fun a => Fin.ext (by match a with | ⟨0, _⟩ => rfl | ⟨1, _⟩ => rfl)

theorem idx_v13 (b : Fin 16) (k : Fin 3) (n : Fin 65536) : idx_main_v13 (ix3 b k n) = ix3 b (0 : Fin 1) (0 : Fin 1) :=
  funext fun a => Fin.ext (by match a with | ⟨0, _⟩ => rfl | ⟨1, _⟩ => rfl | ⟨2, _⟩ => rfl)

/-! ## The stages, one by one -/

/-- The sum of an axis of a cloud over its points (the host's sum starts from the zero word). -/
theorem v0_eq (C : Cert.Vox.Coords) (b : Fin 16) (k : Fin 3) :
    val_main_v0 (F := Ideal) C (ix2 b k) = ∑ n : Fin 65536, C (ix3 b k n) := by
  rw [val_main_v0_apply]
  show Ideal.ofBits .f32 0x00000000#32 + _ = _
  rw [Ideal.ofBits_zero_f32, zero_add]
  exact Finset.sum_congr rfl fun n _ => congrArg C (idx_v0 b k n)

/-- The mean of an axis. -/
theorem v3_eq (C : Cert.Vox.Coords) (b : Fin 16) (k : Fin 3) :
    val_main_v3 (F := Ideal) C (ix3 b k (0 : Fin 1)) = Cert.Vox.mean C b k := by
  rw [val_main_v3_apply, val_main_v1_apply, idx_v1, v0_eq, val_main_v2_apply]
  rfl

/-- The centred coordinate. -/
theorem v5_eq (C : Cert.Vox.Coords) (b : Fin 16) (k : Fin 3) (n : Fin 65536) :
    val_main_v5 (F := Ideal) C (ix3 b k n) = Cert.Vox.cen C b k n := by
  rw [val_main_v5_apply, val_main_v4_apply, idx_v4, v3_eq]
  rfl

/-- The sum of the three squared centred coordinates of a point. -/
theorem call0_v1_eq (C : Cert.Vox.Coords) (b : Fin 16) (n : Fin 65536) :
    val_main_call0_v1 (F := Ideal) C (ix2 b n) = ∑ k : Fin 3, Cert.Vox.cen C b k n * Cert.Vox.cen C b k n := by
  rw [val_main_call0_v1_apply]
  show Ideal.ofBits .f32 0x00000000#32 + _ = _
  rw [Ideal.ofBits_zero_f32, zero_add]
  refine Finset.sum_congr rfl fun k _ => ?_
  rw [idx_call0_v1, val_main_call0_v0_apply, v5_eq]
  rfl

/-- A point's norm. -/
theorem v6_eq (C : Cert.Vox.Coords) (b : Fin 16) (n : Fin 65536) :
    val_main_v6 (F := Ideal) C (ix3 b (0 : Fin 1) n) = Cert.Vox.nrm C b n := by
  rw [val_main_v6_apply, val_main_call0_v2_apply, idx_call0_v2, call0_v1_eq]
  rfl

/-- The reduced index (b, 0) with point `n` put back on the last axis is (b, 0, n). -/
theorem lift_pts (h : S16x1x65536.Reduces [2] S16x1) (b : Fin 16) (n : Fin (S16x1x65536.size 2)) :
    h.lift (ix2 b (0 : Fin 1)) n = ix3 b (0 : Fin 1) (⟨n.val, n.isLt⟩ : Fin 65536) := by
  funext c; apply Fin.ext
  fin_cases c <;> rfl

/-- The largest norm of a cloud: the host's reduce with a maximum body, from the word of -∞, over the points. -/
theorem v7_eq (C : Cert.Vox.Coords) (b : Fin 16) :
    val_main_v7 (F := Ideal) C (ix2 b (0 : Fin 1)) = Cert.Vox.mx C b := by
  have h : S16x1x65536.Reduces [2] S16x1 := by decide
  unfold val_main_v7
  rw [Host.reduce_eq_fold_single FloatOps.maximumf _ _ _ h _]
  have hf : (val_main_v6 (F := Ideal) C ∘ h.lift (ix2 b (0 : Fin 1))) = fun n : Fin 65536 => Cert.Vox.nrm C b n :=
    funext fun n => (congrArg (val_main_v6 (F := Ideal) C) (lift_pts h b n)).trans (v6_eq C b n)
  exact congrArg (fun f => Finset.fold max (Ideal.ofBits .f32 0xFF800000#32) f (Finset.univ : Finset (Fin 65536))) hf

/-- The divisor: twice the largest norm, plus the zero word. -/
theorem v12_eq (C : Cert.Vox.Coords) (b : Fin 16) :
    val_main_v12 (F := Ideal) C (ix3 b (0 : Fin 1) (0 : Fin 1))
      = Cert.Vox.mx C b * Ideal.ofBits .f32 0x40000000#32 + Ideal.ofBits .f32 0x00000000#32 := by
  rw [val_main_v12_apply, val_main_v10_apply, val_main_v8_apply, idx_v8, v7_eq, val_main_v9_apply, val_main_v11_apply]
  rfl

/-- The centred coordinate over the divisor. -/
theorem v14_eq (C : Cert.Vox.Coords) (b : Fin 16) (k : Fin 3) (n : Fin 65536) :
    val_main_v14 (F := Ideal) C (ix3 b k n)
      = Ideal.div (Cert.Vox.cen C b k n)
          (Cert.Vox.mx C b * Ideal.ofBits .f32 0x40000000#32 + Ideal.ofBits .f32 0x00000000#32) := by
  rw [val_main_v14_apply, v5_eq, val_main_v13_apply, idx_v13, v12_eq]
  rfl

/-- Shifted by a half and scaled by 32. -/
theorem v18_eq (C : Cert.Vox.Coords) (b : Fin 16) (k : Fin 3) (n : Fin 65536) :
    val_main_v18 (F := Ideal) C (ix3 b k n)
      = (Ideal.div (Cert.Vox.cen C b k n)
          (Cert.Vox.mx C b * Ideal.ofBits .f32 0x40000000#32 + Ideal.ofBits .f32 0x00000000#32)
          + Ideal.ofBits .f32 0x3F000000#32) * Ideal.ofBits .f32 0x42000000#32 := by
  rw [val_main_v18_apply, val_main_v16_apply, v14_eq, val_main_v15_apply, val_main_v17_apply]
  rfl

/-- The clip's upper bound, the integer 31 converted, is the real 31, which the word `0x41F80000` denotes. -/
theorem thirtyOne : (((31#32 : BitVec 32).toInt : ℝ) : EReal) = Ideal.ofBits .f32 0x41F80000#32 := by
  have e : Ideal.ofBits .f32 0x41F80000#32 = ((31 : ℝ) : EReal) := by
    simp [Ideal.ofBits, Ideal.ieee, -EReal.coe_mul]; norm_num
  have t : (31#32 : BitVec 32).toInt = 31 := by decide
  rw [e, t]
  norm_num

/-- The reference's second result at (cloud, axis, point). -/
theorem nc_eq (C : Cert.Vox.Coords) (b : Fin 16) (k : Fin 3) (n : Fin 65536) :
    val_main_v19 (F := Ideal) C (ix3 b k n) = Cert.Vox.nc C b k n := by
  rw [val_main_v19_apply, val_main_call1_v4_apply, val_main_call1_v3_apply, val_main_call1_v2_apply,
    val_main_call1_v1_apply, val_main_call1_v0_apply, v18_eq]
  show min (((31#32 : BitVec 32).toInt : ℝ) : EReal) (max (Ideal.ofBits .f32 0x00000000#32) _) = _
  rw [thirtyOne]
  rfl

/-! ## The flat voxel index -/

theorem idx_v22 (b : Fin 16) (n : Fin 65536) : idx_main_v22 (ix3 b (0 : Fin 1) n) = ix3 b (0 : Fin 3) n :=
  funext fun a => Fin.ext (by match a with | ⟨0, _⟩ => rfl | ⟨1, _⟩ => rfl | ⟨2, _⟩ => rfl)

theorem idx_v26 (b : Fin 16) (n : Fin 65536) : idx_main_v26 (ix3 b (0 : Fin 1) n) = ix3 b (1 : Fin 3) n :=
  funext fun a => Fin.ext (by match a with | ⟨0, _⟩ => rfl | ⟨1, _⟩ => rfl | ⟨2, _⟩ => rfl)

theorem idx_v31 (b : Fin 16) (n : Fin 65536) : idx_main_v31 (ix3 b (0 : Fin 1) n) = ix3 b (2 : Fin 3) n :=
  funext fun a => Fin.ext (by match a with | ⟨0, _⟩ => rfl | ⟨1, _⟩ => rfl | ⟨2, _⟩ => rfl)

/-- Point `n` of cloud `b` has flat number `b·65536 + n`, whose quotient and remainder by 65536 are `b` and `n`. -/
theorem idx_v23 (b : Fin 16) (n : Fin 65536) : idx_main_v23 (ix2 b n) = ix3 b (0 : Fin 1) n :=
  funext fun a => Fin.ext (by
    have hb := b.isLt; have hn := n.isLt
    match a with
    | ⟨0, _⟩ => show (b.val * 65536 + n.val) / 65536 = b.val; omega
    | ⟨1, _⟩ => rfl
    | ⟨2, _⟩ => show (b.val * 65536 + n.val) % 65536 = n.val; omega)

theorem idx_v27 (b : Fin 16) (n : Fin 65536) : idx_main_v27 (ix2 b n) = ix3 b (0 : Fin 1) n :=
  funext fun a => Fin.ext (by
    have hb := b.isLt; have hn := n.isLt
    match a with
    | ⟨0, _⟩ => show (b.val * 65536 + n.val) / 65536 = b.val; omega
    | ⟨1, _⟩ => rfl
    | ⟨2, _⟩ => show (b.val * 65536 + n.val) % 65536 = n.val; omega)

theorem idx_v32 (b : Fin 16) (n : Fin 65536) : idx_main_v32 (ix2 b n) = ix3 b (0 : Fin 1) n :=
  funext fun a => Fin.ext (by
    have hb := b.isLt; have hn := n.isLt
    match a with
    | ⟨0, _⟩ => show (b.val * 65536 + n.val) / 65536 = b.val; omega
    | ⟨1, _⟩ => rfl
    | ⟨2, _⟩ => show (b.val * 65536 + n.val) % 65536 = n.val; omega)

theorem idx_v35 (b : Fin 16) (z : Fin 1) : idx_main_v35 (ix2 b z) = ix1 b :=
  funext fun a => Fin.ext (by match a with | ⟨0, _⟩ => rfl)

theorem idx_v38 (b : Fin 16) (n : Fin 65536) : idx_main_v38 (ix2 b n) = ix2 b (0 : Fin 1) :=
  funext fun a => Fin.ext (by match a with | ⟨0, _⟩ => rfl | ⟨1, _⟩ => rfl)

theorem idx_v40 (p : Fin 1048576) : idx_main_v40 (ix1 p) = ix2 (Cert.Vox.pb p) (Cert.Vox.pn p) :=
  funext fun a => Fin.ext (by match a with | ⟨0, _⟩ => rfl | ⟨1, _⟩ => rfl)

/-- The integer voxel coordinate: the clipped coordinate rounded to nearest-even and converted. -/
theorem v21_eq (C : Cert.Vox.Coords) (b : Fin 16) (k : Fin 3) (n : Fin 65536) :
    val_main_v21 (F := Ideal) C (ix3 b k n) = Cert.Vox.vox C b k n := by
  rw [val_main_v21_apply, val_main_v20_apply, nc_eq, Ideal.hostUnary_roundeven_def]
  rfl

/-- Row 0 of the voxel coordinates. -/
theorem v23_eq (C : Cert.Vox.Coords) (b : Fin 16) (n : Fin 65536) :
    val_main_v23 (F := Ideal) C (ix2 b n) = Cert.Vox.vox C b 0 n := by
  rw [val_main_v23_apply, idx_v23, val_main_v22_apply, idx_v22, v21_eq]

/-- Row 1 of the voxel coordinates. -/
theorem v27_eq (C : Cert.Vox.Coords) (b : Fin 16) (n : Fin 65536) :
    val_main_v27 (F := Ideal) C (ix2 b n) = Cert.Vox.vox C b 1 n := by
  rw [val_main_v27_apply, idx_v27, val_main_v26_apply, idx_v26, v21_eq]

/-- Row 2 of the voxel coordinates. -/
theorem v32_eq (C : Cert.Vox.Coords) (b : Fin 16) (n : Fin 65536) :
    val_main_v32 (F := Ideal) C (ix2 b n) = Cert.Vox.vox C b 2 n := by
  rw [val_main_v32_apply, idx_v32, val_main_v31_apply, idx_v31, v21_eq]

/-- The cloud's offset: its number times 32768, in 32-bit arithmetic. -/
theorem v38_eq (b : Fin 16) (n : Fin 65536) :
    val_main_v38 (F := Ideal) (ix2 b n) = BitVec.ofNat 32 b.val * 32768#32 := by
  rw [val_main_v38_apply, idx_v38, val_main_v37_apply, val_main_v35_apply, idx_v35, val_main_v34_apply,
    val_main_v36_apply, val_main_c_9_apply]
  rfl

/-- The flat voxel index of point `n` of cloud `b`. -/
theorem v39_eq (C : Cert.Vox.Coords) (b : Fin 16) (n : Fin 65536) :
    val_main_v39 (F := Ideal) C (ix2 b n) = Cert.Vox.flat C b n := by
  rw [val_main_v39_apply, val_main_v33_apply, val_main_v30_apply, val_main_v28_apply, val_main_v25_apply,
    v23_eq, v27_eq, v32_eq, v38_eq, val_main_v24_apply, val_main_c_7_apply, val_main_v29_apply, val_main_c_8_apply]
  rfl

/-- The reference's flat voxel index at flat point number `p`. -/
theorem pidx_eq (C : Cert.Vox.Coords) (p : Fin 1048576) :
    val_main_v40 (F := Ideal) C (ix1 p) = Cert.Vox.pidx C p := by
  rw [val_main_v40_apply, idx_v40, v39_eq]
  rfl

end Cert.ReferenceIdeal.RefValue

end
-- ==== Proof.RefGrid.lean ====
/-
  The reference's grid, read index by index: the two segment sums (features, and ones) read at one element, the
  quotient, and the final re-layout, are `Vox.grid` of the two argument arrays.
-/
import proofs.«146283_j15436112462068_2_alg».proof.Proof.Gen.ReferenceIdeal.Read
import proofs.«146283_j15436112462068_2_alg».proof.Proof.Spec
import proofs.«146283_j15436112462068_2_alg».proof.Proof.RefValue
import proofs.«146283_j15436112462068_2_alg».proof.Proof.LibScatterRows
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read

/-- The scatter index of update row `p` (features) is the flat voxel index of point `p`. -/
theorem v44_eq (C : Cert.Vox.Coords) (p : Fin 1048576) :
    val_main_v44 (F := Ideal) C (ix2 p (0 : Fin 1)) = Cert.Vox.pidx C p := by
  refine (val_main_v44_apply (F := Ideal) C _).trans ?_
  refine Eq.trans (congrArg (val_main_v40 (F := Ideal) C) ?_) (pidx_eq C p)
  funext a
  match a with
  | ⟨0, _⟩ => rfl

/-- The scatter index of update element `p` (ones) is the flat voxel index of point `p`. -/
theorem v48_eq (C : Cert.Vox.Coords) (p : Fin 1048576) :
    val_main_v48 (F := Ideal) C (ix2 p (0 : Fin 1)) = Cert.Vox.pidx C p := by
  refine (val_main_v48_apply (F := Ideal) C _).trans ?_
  refine Eq.trans (congrArg (val_main_v40 (F := Ideal) C) ?_) (pidx_eq C p)
  funext a
  match a with
  | ⟨0, _⟩ => rfl

/-- Update row `p`, channel `ch`, is the feature of point `p mod 65536` of cloud `p / 65536` at that channel. -/
theorem v42_eq (X : Cert.Vox.Feats) (p : Fin 1048576) (ch : Fin 64) :
    val_main_v42 (F := Ideal) X (ix2 p ch) = X (ix3 (Cert.Vox.pb p) ch (Cert.Vox.pn p)) := by
  refine (val_main_v42_apply (F := Ideal) X _).trans ?_
  refine (val_main_v41_apply (F := Ideal) X _).trans ?_
  refine congrArg X ?_
  funext a
  refine Fin.ext ?_
  have hp := p.isLt
  have hc := ch.isLt
  match a with
  | ⟨0, _⟩ => show (p.val * 64 + ch.val) / 4194304 = p.val / 65536; omega
  | ⟨1, _⟩ => show (p.val * 64 + ch.val) % 64 = ch.val; omega
  | ⟨2, _⟩ => show (p.val * 64 + ch.val) / 64 % 65536 = p.val % 65536; omega

/-- The feature scatter is the exact accumulating scatter of the update rows into the zero matrix. -/
theorem v45_def (X : Cert.Vox.Feats) (C : Cert.Vox.Coords) :
    val_main_v45 (F := Ideal) X C
      = Ideal.hostScatterAdd scatter_S524288x64_S1048576x1_S1048576x64_1_0_0_1
          (val_main_v43 (F := Ideal)) (val_main_v44 (F := Ideal) C) (val_main_v42 (F := Ideal) X) := rfl

/-- The feature segment sum at (segment, channel): zero plus the sum of the channel over the segment's points. -/
theorem v45_eq (X : Cert.Vox.Feats) (C : Cert.Vox.Coords) (seg : Fin 524288) (ch : Fin 64) :
    val_main_v45 (F := Ideal) X C (ix2 seg ch)
      = Ideal.ofBits .f32 0x00000000#32 + Cert.Vox.ssum X C seg ch := by
  refine (congrFun (v45_def X C) (ix2 seg ch)).trans ?_
  refine (Cert.LibScatterRows.hostScatterAdd_rows_apply
    scatter_S524288x64_S1048576x1_S1048576x64_1_0_0_1 rfl rfl rfl rfl
    (val_main_v43 (F := Ideal)) (val_main_v44 (F := Ideal) C) (val_main_v42 (F := Ideal) X) seg ch).trans ?_
  refine congrArg₂ (· + ·) ?_ ?_
  · exact (val_main_v43_apply (F := Ideal) _).trans ((val_main_cst_10_apply (F := Ideal) _).trans (Ideal.ofBits_def _))
  · unfold Cert.Vox.ssum Cert.Vox.hits
    exact Finset.sum_congr (Finset.filter_congr fun p _ => by rw [v44_eq]) fun p _ => v42_eq X p ch

/-- The count scatter is the exact accumulating scatter of the ones into the zero vector. -/
theorem v49_def (C : Cert.Vox.Coords) :
    val_main_v49 (F := Ideal) C
      = Ideal.hostScatterAdd scatter_S524288_S1048576x1_S1048576_n_0_0_1
          (val_main_v47 (F := Ideal)) (val_main_v48 (F := Ideal) C) (val_main_v46 (F := Ideal)) := rfl

/-- The count at a segment: zero plus the sum of ones over the segment's points. -/
theorem v49_eq (C : Cert.Vox.Coords) (seg : Fin 524288) :
    val_main_v49 (F := Ideal) C (ix1 seg)
      = Ideal.ofBits .f32 0x00000000#32 + Cert.Vox.scnt C seg := by
  refine (congrFun (v49_def C) (ix1 seg)).trans ?_
  refine (Cert.LibScatterRows.hostScatterAdd_vec_apply
    scatter_S524288_S1048576x1_S1048576_n_0_0_1 rfl rfl rfl rfl
    (val_main_v47 (F := Ideal)) (val_main_v48 (F := Ideal) C) (val_main_v46 (F := Ideal)) seg).trans ?_
  refine congrArg₂ (· + ·) ?_ ?_
  · exact (val_main_v47_apply (F := Ideal) _).trans ((val_main_cst_12_apply (F := Ideal) _).trans (Ideal.ofBits_def _))
  · unfold Cert.Vox.scnt Cert.Vox.hits
    exact Finset.sum_congr (Finset.filter_congr fun p _ => by rw [v48_eq]) fun p _ =>
      (val_main_v46_apply (F := Ideal) _).trans ((val_main_cst_11_apply (F := Ideal) _).trans (Ideal.ofBits_def _))

/-- The divisor at (segment, channel): the larger of the count and one, whatever the channel. -/
theorem v53_eq (C : Cert.Vox.Coords) (seg : Fin 524288) (ch : Fin 64) :
    val_main_v53 (F := Ideal) C (ix2 seg ch)
      = max (Ideal.ofBits .f32 0x00000000#32 + Cert.Vox.scnt C seg) (Ideal.ofBits .f32 0x3F800000#32) := by
  refine (val_main_v53_apply (F := Ideal) C _).trans ?_
  refine (val_main_v52_apply (F := Ideal) C _).trans ?_
  have hi : idx_main_v52 (idx_main_v53 (ix2 seg ch)) = ix1 seg := by
    funext a
    match a with
    | ⟨0, _⟩ => rfl
  refine (congrArg (val_main_v51 (F := Ideal) C) hi).trans ?_
  refine (val_main_v51_apply (F := Ideal) C _).trans ?_
  refine (Ideal.maximumf_def _ _).trans ?_
  exact congrArg₂ max (v49_eq C seg)
    ((val_main_v50_apply (F := Ideal) _).trans ((val_main_cst_13_apply (F := Ideal) _).trans (Ideal.ofBits_def _)))

/-- The averaged cell at (segment, channel). -/
theorem v54_eq (X : Cert.Vox.Feats) (C : Cert.Vox.Coords) (seg : Fin 524288) (ch : Fin 64) :
    val_main_v54 (F := Ideal) X C (ix2 seg ch) = Cert.Vox.cell X C seg ch := by
  refine (val_main_v54_apply (F := Ideal) X C _).trans ?_
  refine (Ideal.hostDivf_def _ _).trans ?_
  unfold Cert.Vox.cell
  exact congrArg₂ Ideal.div (v45_eq X C seg ch) (v53_eq C seg ch)

/-- The reference's first result at (cloud, channel, x, y, z). -/
theorem grid_eq (X : Cert.Vox.Feats) (C : Cert.Vox.Coords) (b : Fin 16) (ch : Fin 64) (x y z : Fin 32) :
    val_main_v56 (F := Ideal) X C (ix5 b ch x y z) = Cert.Vox.grid X C b ch x y z := by
  refine (val_main_v56_apply (F := Ideal) X C _).trans ?_
  refine (val_main_v55_apply (F := Ideal) X C _).trans ?_
  have hi : idx_main_v55 (idx_main_v56 (ix5 b ch x y z)) = ix2 (Cert.Vox.segOf b (Cert.Vox.vxl x y z)) ch := by
    funext a
    refine Fin.ext ?_
    have hb := b.isLt
    have hc := ch.isLt
    have hx := x.isLt
    have hy := y.isLt
    have hz := z.isLt
    match a with
    | ⟨0, _⟩ =>
      show ((((b.val * 32 + x.val) * 32 + y.val) * 32 + z.val) * 64 + ch.val) / 64
        = b.val * 32768 + (x.val * 1024 + y.val * 32 + z.val)
      omega
    | ⟨1, _⟩ =>
      show ((((b.val * 32 + x.val) * 32 + y.val) * 32 + z.val) * 64 + ch.val) % 64 = ch.val
      omega
  exact (congrArg (val_main_v54 (F := Ideal) X C) hi).trans (v54_eq X C _ ch)

end Cert.ReferenceIdeal.RefValue

end
-- ==== Proof.lean ====
/-
  The certificate of the voxelization kernel against its jnp reference.

  Both programs centre each cloud's coordinates on their mean, scale them by twice the cloud's largest point norm,
  shift by one half, scale by 32 and clip to [0, 31] (the second result); round to integer voxel coordinates, flatten
  them with the cloud's offset, and average the features of the points of each voxel: the sum of the features that land
  in the voxel over the larger of their count and one (the first result). The kernel does this in two tiled passes
  around ONE accumulating scatter of the rows `features ++ [1]` (the count rides as a 65th column); the reference
  scatters the 64 feature columns and a vector of ones separately. Over the extended reals the two are one function of
  the arguments, `Vox.grid` and `Vox.nc` (Proof/Spec.lean): each side is read index by index against it
  (Proof/KernelValue.lean over the two regions' output arrays and the host operations between them;
  Proof/RefValue.lean and Proof/RefGrid.lean over the reference's operations), the only mathematics beyond unfolding
  being that a row-scatter's column is the sum over the points whose index is the row (Proof/LibScatterRows.lean),
  so the kernel's first 64 columns are the reference's feature sums and its last column the reference's count.
  No law that needs finiteness is used: the precondition is never opened. The ideal pass rewrote nothing, so
  `preserves` is trivial. The frames of the two kernel programs are the generated frame certificate (in the
  patched copies Proof/FrameKernel.lean, Proof/FrameKernelIdeal.lean); the reference's is its generated run.
-/
import proofs.«146283_j15436112462068_2_alg».proof.Defs
import proofs.«146283_j15436112462068_2_alg».proof.Proof.Gen.Kernel
import proofs.«146283_j15436112462068_2_alg».proof.Proof.Gen.KernelIdeal
import proofs.«146283_j15436112462068_2_alg».proof.Proof.Gen.ReferenceIdeal
import proofs.«146283_j15436112462068_2_alg».proof.Proof.Gen.Pre_finite_inputs
import proofs.«146283_j15436112462068_2_alg».proof.Proof.Gen.ReferenceIdeal.Run
import proofs.«146283_j15436112462068_2_alg».proof.Proof.Gen.ReferenceIdeal.Read
import proofs.«146283_j15436112462068_2_alg».proof.Proof.FrameKernel
import proofs.«146283_j15436112462068_2_alg».proof.Proof.FrameKernelIdeal
import proofs.«146283_j15436112462068_2_alg».proof.Proof.KernelRun
import proofs.«146283_j15436112462068_2_alg».proof.Proof.KernelValue
import proofs.«146283_j15436112462068_2_alg».proof.Proof.RefValue
import proofs.«146283_j15436112462068_2_alg».proof.Proof.RefGrid
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the grid at `Vox.grid` and the normalised coordinates at `Vox.nc` of the (agreeing) arguments. -/
theorem algebraic : Cert.algebraic_KernelIdeal_ReferenceIdeal := by
  intro m ρ m' ρ' _ hagree
  refine ⟨fun c => Cert.KernelIdeal.GenP.W4 m ρ c (Proc.devRef .tc Cert.KernelIdeal.main_v10),
    fun c => Cert.KernelIdeal.GenP.W4 m ρ c (Proc.devRef .tc Cert.KernelIdeal.main_v0_0),
    Cert.KernelIdeal.KRun.run_values m ρ, ?_⟩
  refine (θ_run Cert.ReferenceIdeal.defs _ _).mono (fun r h c => ⟨?_, ?_, (h c).2.2.1, (h c).2.2.2⟩)
    (Cert.ReferenceIdeal.Value.run (F := Ideal) m' ρ')
  · refine ((h c).1.trans (Cert.ReferenceIdeal.Read.val_main_v56_eq m' c)).trans ?_
    funext i
    obtain ⟨b, ch, x, y, z, rfl⟩ : ∃ (b : Fin 16) (ch : Fin 64) (x y z : Fin 32), i = ix5 b ch x y z :=
      ⟨i 0, i 1, i 2, i 3, i 4, eq_ix5 i⟩
    rw [Cert.ReferenceIdeal.RefValue.grid_eq]
    refine Eq.trans ?_ (Cert.KernelIdeal.KValue.grid_value m ρ c b ch x y z).symm
    rw [(hagree c).1, (hagree c).2]
  · refine ((h c).2.1.trans (Cert.ReferenceIdeal.Read.val_main_v19_eq _)).trans ?_
    funext i
    obtain ⟨b, k, n, rfl⟩ : ∃ (b : Fin 16) (k : Fin 3) (n : Fin 65536), i = ix3 b k n := ⟨i 0, i 1, i 2, eq_ix3 i⟩
    rw [Cert.ReferenceIdeal.RefValue.nc_eq]
    refine Eq.trans ?_ (Cert.KernelIdeal.KValue.nc_value m ρ c b k n).symm
    rw [(hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
